-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel

variable [Facts]

def fn {F : FTy → Type} [FloatOps F] (main_arg0 : FVec F S64x3x512x512 .f32) (main_arg1 : FVec F S64x3x512x512 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  let main_v4 : FVec F S64x3x512x512 .f32 := Host.absf main_arg1
  let main_cst_0 : FVec F S_ .f32 := constant S_ .f32 0x7F800000#32
  let main_v5 : FVec F S64x3x512x512 .f32 := broadcastInDim S64x3x512x512 ![] bcast_S_S64x3x512x512 main_cst_0
  let main_v6 : IVec S64x3x512x512 1 := cmpf .olt main_v4 main_v5
  let main_c_1 : IVec S_ 1 := constantI S_ 1 1#1
  let main_v7 : IVec S_ 1 := (fun x v => Host.reduce IntOp.andi x v reducesTo_S64x3x512x512_S_d0_1_2_3 h_S_) main_v6 main_c_1
  let main_v8 : IVec S_ 1 := andi main_v3 main_v7
  main_v8
-- ==== Kernel.lean ====
abbrev S64x3x512x512 : Shape := ⟨4, ![64, 3, 512, 512]⟩
abbrev S64x3 : Shape := ⟨2, ![64, 3]⟩
abbrev S8x3x128x512 : Shape := ⟨4, ![8, 3, 128, 512]⟩
abbrev S8x3 : Shape := ⟨2, ![8, 3]⟩
abbrev S8x3x128 : Shape := ⟨3, ![8, 3, 128]⟩
abbrev S8x3x128x1 : Shape := ⟨4, ![8, 3, 128, 1]⟩
abbrev S8x3x1 : Shape := ⟨3, ![8, 3, 1]⟩
abbrev S8x3x1x1 : Shape := ⟨4, ![8, 3, 1, 1]⟩
abbrev S_ : Shape := ⟨0, ![]⟩
abbrev S3 : Shape := ⟨1, ![3]⟩
abbrev S1 : Shape := ⟨1, ![1]⟩

abbrev nBuf : Space → Nat
  | .hbm => 29
  | .vmem => 11
  | .smem => 0
  | _ => 0

abbrev bufTy : (tb : Table) → Fin (tcTables nBuf tb) → BufTy
  | .hbm, ⟨0, _⟩ => ⟨S64x3x512x512, .f32⟩
  | .hbm, ⟨1, _⟩ => ⟨S64x3x512x512, .f32⟩
  | .hbm, ⟨2, _⟩ => ⟨S64x3, .f32⟩
  | .hbm, ⟨3, _⟩ => ⟨S64x3, .f32⟩
  | .hbm, ⟨4, _⟩ => ⟨S_, .f32⟩
  | .hbm, ⟨5, _⟩ => ⟨S3, .f32⟩
  | .hbm, ⟨6, _⟩ => ⟨S_, .f32⟩
  | .hbm, ⟨7, _⟩ => ⟨S3, .f32⟩
  | .hbm, ⟨8, _⟩ => ⟨S_, .f32⟩
  | .hbm, ⟨9, _⟩ => ⟨S3, .f32⟩
  | .hbm, ⟨10, _⟩ => ⟨S3, .i1⟩
  | .hbm, ⟨11, _⟩ => ⟨S_, .f32⟩
  | .hbm, ⟨12, _⟩ => ⟨S3, .f32⟩
  | .hbm, ⟨13, _⟩ => ⟨S3, .i1⟩
  | .hbm, ⟨14, _⟩ => ⟨S_, .f32⟩
  | .hbm, ⟨15, _⟩ => ⟨S_, .f32⟩
  | .hbm, ⟨16, _⟩ => ⟨S3, .f32⟩
  | .hbm, ⟨17, _⟩ => ⟨S3, .f32⟩
  | .hbm, ⟨18, _⟩ => ⟨S3, .f32⟩
  | .hbm, ⟨19, _⟩ => ⟨S_, .f32⟩
  | .hbm, ⟨20, _⟩ => ⟨S_, .f32⟩
  | .hbm, ⟨21, _⟩ => ⟨S3, .f32⟩
  | .hbm, ⟨22, _⟩ => ⟨S3, .f32⟩
  | .hbm, ⟨23, _⟩ => ⟨S1, .f32⟩
  | .hbm, ⟨24, _⟩ => ⟨S_, .f32⟩
  | .hbm, ⟨25, _⟩ => ⟨S1, .f32⟩
  | .hbm, ⟨26, _⟩ => ⟨S_, .f32⟩
  | .hbm, ⟨27, _⟩ => ⟨S1, .f32⟩
  | .hbm, ⟨28, _⟩ => ⟨S_, .f32⟩
  | .local _ .vmem, ⟨0, _⟩ => ⟨S8x3x128x512, .f32⟩
  | .local _ .vmem, ⟨1, _⟩ => ⟨S8x3x128x512, .f32⟩
  | .local _ .vmem, ⟨2, _⟩ => ⟨S8x3x128x512, .f32⟩
  | .local _ .vmem, ⟨3, _⟩ => ⟨S8x3x128x512, .f32⟩
  | .local _ .vmem, ⟨4, _⟩ => ⟨S8x3, .f32⟩
  | .local _ .vmem, ⟨5, _⟩ => ⟨S8x3, .f32⟩
  | .local _ .vmem, ⟨6, _⟩ => ⟨S8x3, .f32⟩
  | .local _ .vmem, ⟨7, _⟩ => ⟨S8x3, .f32⟩
  | .local _ .vmem, ⟨8, _⟩ => ⟨S8x3, .f32⟩
  | .local _ .vmem, ⟨9, _⟩ => ⟨S8x3, .f32⟩
  | .local _ .vmem, ⟨10, _⟩ => ⟨S8x3, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_v8 : Ref sig .tc := ⟨.hbm, 18, rfl⟩
abbrev main_cst_4 : Ref sig .tc := ⟨.hbm, 19, rfl⟩
abbrev main_call1_v0 : Ref sig .tc := ⟨.hbm, 20, rfl⟩
abbrev main_call1_v1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v46 : BitVec 1 := Scalar.cmpi .eq arg1 c3_i32
  let v47 : BitVec 32 := Scalar.extui v46
  let c0_i32_27 : BitVec 32 := 0#32
  let v48 : BitVec 1 := Scalar.cmpi .ne v47 c0_i32_27
  v48

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x3x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x3_S8x3_0_0 : ∀ a, (![0, 0] : Fin 2 → Nat) a + S8x3.size a ≤ S8x3.size a
  h_S8x3 : 0 < S8x3.numel
  shapeCasts_S8x3_S8x3 : S8x3.ShapeCasts S8x3
  inb_S8x3x128x512_S8x3x128x512_0_0_0_0 : ∀ a, (![0, 0, 0, 0] : Fin 4 → Nat) a + S8x3x128x512.size a ≤ S8x3x128x512.size a
  h_S8x3x128x512 : 0 < S8x3x128x512.numel
  natLt_1_32 : 1 < 32
  reduces_S8x3x128x512_S8x3x128 : S8x3x128x512.Reduces [3] S8x3x128
  shapeCasts_S8x3x128_S8x3x128x1 : S8x3x128.ShapeCasts S8x3x128x1
  reduces_S8x3x128x1_S8x3x1 : S8x3x128x1.Reduces [2] S8x3x1
  shapeCasts_S8x3x1_S8x3x1x1 : S8x3x1.ShapeCasts S8x3x1x1
  shapeCasts_S8x3x1x1_S8x3 : S8x3x1x1.ShapeCasts S8x3
  reducesTo_S64x3_S3_d0 : S64x3.ReducesTo [0] S3
  h_S_ : 0 < S_.numel
  bcast_S_S3 : S_.BroadcastsInDim S3 (![] : Fin 0 → Fin S3.rank)
  slices_S3_S1_0 : S3.Slices ![0] S1
  shapeCasts_S1_S_ : S1.ShapeCasts S_
  slices_S3_S1_1 : S3.Slices ![1] S1
  slices_S3_S1_2 : S3.Slices ![2] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x128x512.size a ≤ S64x3x512x512.size a
  hwx0_0 : ∀ i : grid0.Coords, EltTy.bits .f32 = 32 ∨ (Rect.block (s := S64x3x512x512) S8x3x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x128x512.size a ≤ S64x3x512x512.size a
  hwx0_1 : ∀ i : grid0.Coords, EltTy.bits .f32 = 32 ∨ (Rect.block (s := S64x3x512x512) S8x3x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x3.size a ≤ S64x3.size a
  hwx0_2 : ∀ i : grid0.Coords, EltTy.bits .f32 = 32 ∨ (Rect.block (s := S64x3) S8x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x3.size a ≤ S64x3.size a
  hwx0_3 : ∀ i : grid0.Coords, EltTy.bits .f32 = 32 ∨ (Rect.block (s := S64x3) S8x3.size (cc0_transform_3 i) (hinb0_3 i)).WholeWords (EltTy.packing .f32)

variable [Facts₀]

abbrev win0_0 : Pipeline.Window sig grid0 :=
  Pipeline.Window.ofSpec (Memref.whole main_arg0) S8x3x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x3.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x3.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x3x512x512 : Shape := ⟨4, ![64, 3, 512, 512]⟩
abbrev S_ : Shape := ⟨0, ![]⟩
abbrev S64x3 : Shape := ⟨2, ![64, 3]⟩
abbrev S3 : Shape := ⟨1, ![3]⟩
abbrev S1 : Shape := ⟨1, ![1]⟩

abbrev nBuf : Space → Nat
  | .hbm => 74
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S64x3x512x512, .f32⟩
  | .hbm, ⟨2, _⟩ => ⟨S_, .f32⟩
  | .hbm, ⟨3, _⟩ => ⟨S64x3x512x512, .f32⟩
  | .hbm, ⟨4, _⟩ => ⟨S64x3x512x512, .i1⟩
  | .hbm, ⟨5, _⟩ => ⟨S64x3x512x512, .f32⟩
  | .hbm, ⟨6, _⟩ => ⟨S_, .f32⟩
  | .hbm, ⟨7, _⟩ => ⟨S64x3x512x512, .f32⟩
  | .hbm, ⟨8, _⟩ => ⟨S64x3x512x512, .i1⟩
  | .hbm, ⟨9, _⟩ => ⟨S64x3x512x512, .f32⟩
  | .hbm, ⟨10, _⟩ => ⟨S64x3x512x512, .f32⟩
  | .hbm, ⟨11, _⟩ => ⟨S_, .f32⟩
  | .hbm, ⟨12, _⟩ => ⟨S64x3, .f32⟩
  | .hbm, ⟨13, _⟩ => ⟨S64x3x512x512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S64x3x512x512, .f32⟩
  | .hbm, ⟨18, _⟩ => ⟨S64x3x512x512, .f32⟩
  | .hbm, ⟨19, _⟩ => ⟨S_, .f32⟩
  | .hbm, ⟨20, _⟩ => ⟨S64x3x512x512, .f32⟩
  | .hbm, ⟨21, _⟩ => ⟨S64x3x512x512, .f32⟩
  | .hbm, ⟨22, _⟩ => ⟨S_, .f32⟩
  | .hbm, ⟨23, _⟩ => ⟨S64x3, .f32⟩
  | .hbm, ⟨24, _⟩ => ⟨S_, .f32⟩
  | .hbm, ⟨25, _⟩ => ⟨S64x3, .f32⟩
  | .hbm, ⟨26, _⟩ => ⟨S_, .f32⟩
  | .hbm, ⟨27, _⟩ => ⟨S64x3, .f32⟩
  | .hbm, ⟨28, _⟩ => ⟨S64x3, .i1⟩
  | .hbm, ⟨29, _⟩ => ⟨S_, .f32⟩
  | .hbm, ⟨30, _⟩ => ⟨S64x3, .f32⟩
  | .hbm, ⟨31, _⟩ => ⟨S64x3, .i1⟩
  | .hbm, ⟨32, _⟩ => ⟨S_, .f32⟩
  | .hbm, ⟨33, _⟩ => ⟨S64x3, .f32⟩
  | .hbm, ⟨34, _⟩ => ⟨S64x3, .i1⟩
  | .hbm, ⟨35, _⟩ => ⟨S_, .f32⟩
  | .hbm, ⟨36, _⟩ => ⟨S_, .f32⟩
  | .hbm, ⟨37, _⟩ => ⟨S64x3, .f32⟩
  | .hbm, ⟨38, _⟩ => ⟨S64x3, .f32⟩
  | .hbm, ⟨39, _⟩ => ⟨S64x3, .f32⟩
  | .hbm, ⟨40, _⟩ => ⟨S_, .f32⟩
  | .hbm, ⟨41, _⟩ => ⟨S_, .f32⟩
  | .hbm, ⟨42, _⟩ => ⟨S64x3, .f32⟩
  | .hbm, ⟨43, _⟩ => ⟨S64x3, .f32⟩
  | .hbm, ⟨44, _⟩ => ⟨S_, .f32⟩
  | .hbm, ⟨45, _⟩ => ⟨S_, .f32⟩
  | .hbm, ⟨46, _⟩ => ⟨S64x3, .f32⟩
  | .hbm, ⟨47, _⟩ => ⟨S64x3, .f32⟩
  | .hbm, ⟨48, _⟩ => ⟨S_, .f32⟩
  | .hbm, ⟨49, _⟩ => ⟨S3, .f32⟩
  | .hbm, ⟨50, _⟩ => ⟨S64x3, .f32⟩
  | .hbm, ⟨51, _⟩ => ⟨S_, .f32⟩
  | .hbm, ⟨52, _⟩ => ⟨S3, .f32⟩
  | .hbm, ⟨53, _⟩ => ⟨S_, .f32⟩
  | .hbm, ⟨54, _⟩ => ⟨S3, .f32⟩
  | .hbm, ⟨55, _⟩ => ⟨S3, .i1⟩
  | .hbm, ⟨56, _⟩ => ⟨S_, .f32⟩
  | .hbm, ⟨57, _⟩ => ⟨S3, .f32⟩
  | .hbm, ⟨58, _⟩ => ⟨S3, .i1⟩
  | .hbm, ⟨59, _⟩ => ⟨S_, .f32⟩
  | .hbm, ⟨60, _⟩ => ⟨S_, .f32⟩
  | .hbm, ⟨61, _⟩ => ⟨S3, .f32⟩
  | .hbm, ⟨62, _⟩ => ⟨S3, .f32⟩
  | .hbm, ⟨63, _⟩ => ⟨S3, .f32⟩
  | .hbm, ⟨64, _⟩ => ⟨S_, .f32⟩
  | .hbm, ⟨65, _⟩ => ⟨S_, .f32⟩
  | .hbm, ⟨66, _⟩ => ⟨S3, .f32⟩
  | .hbm, ⟨67, _⟩ => ⟨S3, .f32⟩
  | .hbm, ⟨68, _⟩ => ⟨S1, .f32⟩
  | .hbm, ⟨69, _⟩ => ⟨S_, .f32⟩
  | .hbm, ⟨70, _⟩ => ⟨S1, .f32⟩
  | .hbm, ⟨71, _⟩ => ⟨S_, .f32⟩
  | .hbm, ⟨72, _⟩ => ⟨S1, .f32⟩
  | .hbm, ⟨73, _⟩ => ⟨S_, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_cst_5 : Ref sig .tc := ⟨.hbm, 24, rfl⟩
abbrev main_v11 : Ref sig .tc := ⟨.hbm, 25, rfl⟩
abbrev main_cst_6 : Ref sig .tc := ⟨.hbm, 26, rfl⟩
abbrev main_v12 : Ref sig .tc := ⟨.hbm, 27, rfl⟩
abbrev main_v13 : Ref sig .tc := ⟨.hbm, 28, rfl⟩
abbrev main_cst_7 : Ref sig .tc := ⟨.hbm, 29, rfl⟩
abbrev main_v14 : Ref sig .tc := ⟨.hbm, 30, rfl⟩
abbrev main_v15 : Ref sig .tc := ⟨.hbm, 31, rfl⟩
abbrev main_cst_8 : Ref sig .tc := ⟨.hbm, 32, rfl⟩
abbrev main_v16 : Ref sig .tc := ⟨.hbm, 33, rfl⟩
abbrev main_v17 : Ref sig .tc := ⟨.hbm, 34, rfl⟩
abbrev main_cst_9 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_cst_10 : Ref sig .tc := ⟨.hbm, 40, rfl⟩
abbrev main_call2_v0 : Ref sig .tc := ⟨.hbm, 41, rfl⟩
abbrev main_call2_v1 : Ref sig .tc := ⟨.hbm, 42, rfl⟩
abbrev main_v20 : Ref sig .tc := ⟨.hbm, 43, rfl⟩
abbrev main_cst_11 : Ref sig .tc := ⟨.hbm, 44, rfl⟩
abbrev main_call3_v0 : Ref sig .tc := ⟨.hbm, 45, rfl⟩
abbrev main_call3_v1 : Ref sig .tc := ⟨.hbm, 46, rfl⟩
abbrev main_v21 : Ref sig .tc := ⟨.hbm, 47, rfl⟩
abbrev main_cst_12 : Ref sig .tc := ⟨.hbm, 48, rfl⟩
abbrev main_v22 : Ref sig .tc := ⟨.hbm, 49, rfl⟩
abbrev main_v23 : Ref sig .tc := ⟨.hbm, 50, rfl⟩
abbrev main_cst_13 : Ref sig .tc := ⟨.hbm, 51, rfl⟩
abbrev main_v24 : Ref sig .tc := ⟨.hbm, 52, rfl⟩
abbrev main_cst_14 : Ref sig .tc := ⟨.hbm, 53, rfl⟩
abbrev main_v25 : Ref sig .tc := ⟨.hbm, 54, rfl⟩
abbrev main_v26 : Ref sig .tc := ⟨.hbm, 55, rfl⟩
abbrev main_cst_15 : Ref sig .tc := ⟨.hbm, 56, rfl⟩
abbrev main_v27 : Ref sig .tc := ⟨.hbm, 57, rfl⟩
abbrev main_v28 : Ref sig .tc := ⟨.hbm, 58, rfl⟩
abbrev main_cst_16 : Ref sig .tc := ⟨.hbm, 59, rfl⟩
abbrev main_call4_v0 : Ref sig .tc := ⟨.hbm, 60, rfl⟩
abbrev main_call4_v1 : Ref sig .tc := ⟨.hbm, 61, rfl⟩
abbrev main_v29 : Ref sig .tc := ⟨.hbm, 62, rfl⟩
abbrev main_v30 : Ref sig .tc := ⟨.hbm, 63, rfl⟩
abbrev main_cst_17 : Ref sig .tc := ⟨.hbm, 64, rfl⟩
abbrev main_call5_v0 : Ref sig .tc := ⟨.hbm, 65, rfl⟩
abbrev main_call5_v1 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩

abbrev nD : Nat := 1
abbrev τ : Topo := Topo.v7x

variable {F : FTy → Type} [FloatOps F]

class Facts₀ : Prop where
  bcast_S_S64x3x512x512 : S_.BroadcastsInDim S64x3x512x512 (![] : Fin 0 → Fin S64x3x512x512.rank)
  reducesTo_S64x3x512x512_S64x3_d2_3 : S64x3x512x512.ReducesTo [2, 3] S64x3
  h_S_ : 0 < S_.numel
  bcast_S_S64x3 : S_.BroadcastsInDim S64x3 (![] : Fin 0 → Fin S64x3.rank)
  reducesTo_S64x3_S3_d0 : S64x3.ReducesTo [0] S3
  bcast_S_S3 : S_.BroadcastsInDim S3 (![] : Fin 0 → Fin S3.rank)
  slices_S3_S1_0 : S3.Slices ![0] S1
  shapeCasts_S1_S_ : S1.ShapeCasts S_
  slices_S3_S1_1 : S3.Slices ![1] S1
  slices_S3_S1_2 : S3.Slices ![2] S1

variable [Facts₀]

class Facts : Prop extends Facts₀ where

variable [Facts]
-- ==== Proof.KPieces.lean ====
import proofs.«140002_j44796508897918_2_alg».proof.Proof.Gen.KernelIdeal.Frame
import Idealize.ShloMosaic.Lib.Pipeline.Value
import Idealize.ShloMosaic.Lib.Tactic

/-!
# What one grid point leaves behind, as values

The kernel keeps three running counts (both masks, the input's mask, the target's mask) in scratch buffers across the
four row bands of a batch tile. At a tile's first band the counts restart from zero, at the other bands they continue
from what the band before left, and at the last band the two output blocks are computed from the finished counts. Each
statement below reads one buffer's contents after one kind of point as the body's pure arithmetic applied to the blocks
and counts that point started from; no store is walked twice.
-/

noncomputable section

open Idealize.ShloMosaic Idealize.ShloMosaic.TcCoe Idealize.SL.Sem

namespace Cert.KernelIdeal.Val

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The three counts after a point, from the two blocks and the counts before it. -/
abbrev nx0 (x0 x1 : Vec F S8x3x128x512 .f32) (xs0 : Vec F S8x3 .f32) : Vec F S8x3 .f32 := k0_pay1 (k0_pay14 x0 x1 xs0)
abbrev nx1 (x0 : Vec F S8x3x128x512 .f32) (xs1 : Vec F S8x3 .f32) : Vec F S8x3 .f32 := k0_pay2 (k0_pay12 x0) xs1
abbrev nx2 (x1 : Vec F S8x3x128x512 .f32) (xs2 : Vec F S8x3 .f32) : Vec F S8x3 .f32 := k0_pay3 (k0_pay13 x1) xs2

/-! ## A tile's first band: the counts restart from the stored zeros -/

theorem sA0 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (arg8 : Memref sig .tc .vmem S8x3 .f32) (harg8 : arg8.IsWhole) (hc0 : cond0_0 i) (hc1 : ¬cond0_1 i)
    (x0 x1 : Vec F S8x3x128x512 .f32) :
    sout0_A_0 c i arg2 harg2 arg3 harg3 arg4 harg4 arg5 harg5 arg6 harg6 arg7 harg7 arg8 harg8 hc0 hc1 x0 x1 = nx0 x0 x1 k0_pay7 := by
  unfold sout0_A_0
  rw [View.read_writes_eq_canon _ _ _ (scover0_A_0 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S8x3) hz2, View.readCov_unit_zero (S := S8x3) _ hz2]
  simp only [View.readAt_eq_ld, View.readCov_unit_zero (S := S8x3) _ hz2, harg2.read_unread, harg3.read_unread, harg6.read_unread, harg7.read_unread, harg8.read_unread,
    View.ld_unit_zero (S := S8x3) hz2, View.ld_unit_zero (S := S8x3x128x512) hz4]

theorem sA1 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (arg8 : Memref sig .tc .vmem S8x3 .f32) (harg8 : arg8.IsWhole) (hc0 : cond0_0 i) (hc1 : ¬cond0_1 i)
    (x0 x1 : Vec F S8x3x128x512 .f32) :
    sout0_A_1 c i arg2 harg2 arg3 harg3 arg4 harg4 arg5 harg5 arg6 harg6 arg7 harg7 arg8 harg8 hc0 hc1 x0 x1 = nx1 x0 k0_pay8 := by
  unfold sout0_A_1
  rw [View.read_writes_eq_canon _ _ _ (scover0_A_1 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S8x3) hz2, View.readCov_unit_zero (S := S8x3) _ hz2]
  simp only [View.readAt_eq_ld, View.readCov_unit_zero (S := S8x3) _ hz2, harg2.read_unread, harg3.read_unread, harg6.read_unread, harg7.read_unread, harg8.read_unread,
    View.ld_unit_zero (S := S8x3) hz2, View.ld_unit_zero (S := S8x3x128x512) hz4]

theorem sA2 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (arg8 : Memref sig .tc .vmem S8x3 .f32) (harg8 : arg8.IsWhole) (hc0 : cond0_0 i) (hc1 : ¬cond0_1 i)
    (x0 x1 : Vec F S8x3x128x512 .f32) :
    sout0_A_2 c i arg2 harg2 arg3 harg3 arg4 harg4 arg5 harg5 arg6 harg6 arg7 harg7 arg8 harg8 hc0 hc1 x0 x1 = nx2 x1 k0_pay9 := by
  unfold sout0_A_2
  rw [View.read_writes_eq_canon _ _ _ (scover0_A_2 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S8x3) hz2, View.readCov_unit_zero (S := S8x3) _ hz2]
  simp only [View.readAt_eq_ld, View.readCov_unit_zero (S := S8x3) _ hz2, harg2.read_unread, harg3.read_unread, harg6.read_unread, harg7.read_unread, harg8.read_unread,
    View.ld_unit_zero (S := S8x3) hz2, View.ld_unit_zero (S := S8x3x128x512) hz4]

/-! ## A middle band: the counts continue -/

theorem sB0 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (arg8 : Memref sig .tc .vmem S8x3 .f32) (harg8 : arg8.IsWhole) (hc0 : ¬cond0_0 i) (hc1 : ¬cond0_1 i)
    (x0 x1 : Vec F S8x3x128x512 .f32) (xs0 xs1 xs2 : Vec F S8x3 .f32) :
    sout0_B_0 c i arg2 harg2 arg3 harg3 arg4 harg4 arg5 harg5 arg6 harg6 arg7 harg7 arg8 harg8 hc0 hc1 x0 x1 xs0 xs1 xs2 = nx0 x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 xs0 xs1 xs2)]
  unfold kernelRun0_B
  dsimp only
  sl_unfold_words
  rw [View.canon_unit_zero hz2]
  simp only [View.readAt_eq_ld, View.readCov_unit_zero (S := S8x3) _ hz2, harg2.read_unread, harg3.read_unread, harg6.read_unread, harg7.read_unread, harg8.read_unread,
    View.ld_unit_zero (S := S8x3) hz2, View.ld_unit_zero (S := S8x3x128x512) hz4]

theorem sB1 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (arg8 : Memref sig .tc .vmem S8x3 .f32) (harg8 : arg8.IsWhole) (hc0 : ¬cond0_0 i) (hc1 : ¬cond0_1 i)
    (x0 x1 : Vec F S8x3x128x512 .f32) (xs0 xs1 xs2 : Vec F S8x3 .f32) :
    sout0_B_1 c i arg2 harg2 arg3 harg3 arg4 harg4 arg5 harg5 arg6 harg6 arg7 harg7 arg8 harg8 hc0 hc1 x0 x1 xs0 xs1 xs2 = nx1 x0 xs1 := by
  unfold sout0_B_1
  rw [View.read_writes_eq_canon _ _ _ (scover0_B_1 c i arg2 harg2 arg3 harg3 arg4 harg4 arg5 harg5 arg6 harg6 arg7 harg7 arg8 harg8 hc0 hc1 x0 x1 xs0 xs1 xs2)]
  unfold kernelRun0_B
  dsimp only
  sl_unfold_words
  rw [View.canon_unit_zero hz2]
  simp only [View.readAt_eq_ld, View.readCov_unit_zero (S := S8x3) _ hz2, harg2.read_unread, harg3.read_unread, harg6.read_unread, harg7.read_unread, harg8.read_unread,
    View.ld_unit_zero (S := S8x3) hz2, View.ld_unit_zero (S := S8x3x128x512) hz4]

theorem sB2 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (arg8 : Memref sig .tc .vmem S8x3 .f32) (harg8 : arg8.IsWhole) (hc0 : ¬cond0_0 i) (hc1 : ¬cond0_1 i)
    (x0 x1 : Vec F S8x3x128x512 .f32) (xs0 xs1 xs2 : Vec F S8x3 .f32) :
    sout0_B_2 c i arg2 harg2 arg3 harg3 arg4 harg4 arg5 harg5 arg6 harg6 arg7 harg7 arg8 harg8 hc0 hc1 x0 x1 xs0 xs1 xs2 = nx2 x1 xs2 := by
  unfold sout0_B_2
  rw [View.read_writes_eq_canon _ _ _ (scover0_B_2 c i arg2 harg2 arg3 harg3 arg4 harg4 arg5 harg5 arg6 harg6 arg7 harg7 arg8 harg8 hc0 hc1 x0 x1 xs0 xs1 xs2)]
  unfold kernelRun0_B
  dsimp only
  sl_unfold_words
  rw [View.canon_unit_zero hz2]
  simp only [View.readAt_eq_ld, View.readCov_unit_zero (S := S8x3) _ hz2, harg2.read_unread, harg3.read_unread, harg6.read_unread, harg7.read_unread, harg8.read_unread,
    View.ld_unit_zero (S := S8x3) hz2, View.ld_unit_zero (S := S8x3x128x512) hz4]

/-! ## A tile's last band: the counts continue, and the two output blocks are computed from them -/

theorem sC0 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (arg8 : Memref sig .tc .vmem S8x3 .f32) (harg8 : arg8.IsWhole) (hc0 : ¬cond0_0 i) (hc1 : cond0_1 i)
    (x0 x1 : Vec F S8x3x128x512 .f32) (xs0 xs1 xs2 : Vec F S8x3 .f32) :
    sout0_C_0 c i arg2 harg2 arg3 harg3 arg4 harg4 arg5 harg5 arg6 harg6 arg7 harg7 arg8 harg8 hc0 hc1 x0 x1 xs0 xs1 xs2 = nx0 x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero hz2]
  simp only [View.readAt_eq_ld, View.readCov_unit_zero (S := S8x3) _ hz2, harg2.read_unread, harg3.read_unread, harg6.read_unread, harg7.read_unread, harg8.read_unread,
    View.ld_unit_zero (S := S8x3) hz2, View.ld_unit_zero (S := S8x3x128x512) hz4]

theorem sC1 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (arg8 : Memref sig .tc .vmem S8x3 .f32) (harg8 : arg8.IsWhole) (hc0 : ¬cond0_0 i) (hc1 : cond0_1 i)
    (x0 x1 : Vec F S8x3x128x512 .f32) (xs0 xs1 xs2 : Vec F S8x3 .f32) :
    sout0_C_1 c i arg2 harg2 arg3 harg3 arg4 harg4 arg5 harg5 arg6 harg6 arg7 harg7 arg8 harg8 hc0 hc1 x0 x1 xs0 xs1 xs2 = nx1 x0 xs1 := by
  unfold sout0_C_1
  rw [View.read_writes_eq_canon _ _ _ (scover0_C_1 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero hz2]
  simp only [View.readAt_eq_ld, View.readCov_unit_zero (S := S8x3) _ hz2, harg2.read_unread, harg3.read_unread, harg6.read_unread, harg7.read_unread, harg8.read_unread,
    View.ld_unit_zero (S := S8x3) hz2, View.ld_unit_zero (S := S8x3x128x512) hz4]

theorem sC2 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (arg8 : Memref sig .tc .vmem S8x3 .f32) (harg8 : arg8.IsWhole) (hc0 : ¬cond0_0 i) (hc1 : cond0_1 i)
    (x0 x1 : Vec F S8x3x128x512 .f32) (xs0 xs1 xs2 : Vec F S8x3 .f32) :
    sout0_C_2 c i arg2 harg2 arg3 harg3 arg4 harg4 arg5 harg5 arg6 harg6 arg7 harg7 arg8 harg8 hc0 hc1 x0 x1 xs0 xs1 xs2 = nx2 x1 xs2 := by
  unfold sout0_C_2
  rw [View.read_writes_eq_canon _ _ _ (scover0_C_2 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero hz2]
  simp only [View.readAt_eq_ld, View.readCov_unit_zero (S := S8x3) _ hz2, harg2.read_unread, harg3.read_unread, harg6.read_unread, harg7.read_unread, harg8.read_unread,
    View.ld_unit_zero (S := S8x3) hz2, View.ld_unit_zero (S := S8x3x128x512) hz4]

theorem oC2 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (arg8 : Memref sig .tc .vmem S8x3 .f32) (harg8 : arg8.IsWhole) (hc0 : ¬cond0_0 i) (hc1 : cond0_1 i)
    (x0 x1 : Vec F S8x3x128x512 .f32) (xs0 xs1 xs2 : Vec F S8x3 .f32) :
    out0_C_2 c i arg2 harg2 arg3 harg3 arg4 harg4 arg5 harg5 arg6 harg6 arg7 harg7 arg8 harg8 hc0 hc1 x0 x1 xs0 xs1 xs2 = k0_pay5 (nx0 x0 x1 xs0) (nx1 x0 xs1) (nx2 x1 xs2) := by
  unfold out0_C_2
  rw [View.read_writes_eq_canon _ _ _ (cover0_C_2 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero hz2]
  simp only [View.readAt_eq_ld, View.readCov_unit_zero (S := S8x3) _ hz2, harg2.read_unread, harg3.read_unread, harg6.read_unread, harg7.read_unread, harg8.read_unread,
    View.ld_unit_zero (S := S8x3) hz2, View.ld_unit_zero (S := S8x3x128x512) hz4]

theorem oC3 (c : Dev nD) (i : grid0.Coords) (arg2 : Memref sig .tc .vmem S8x3x128x512 .f32) (harg2 : arg2.IsWhole) (arg3 : Memref sig .tc .vmem S8x3x128x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (arg8 : Memref sig .tc .vmem S8x3 .f32) (harg8 : arg8.IsWhole) (hc0 : ¬cond0_0 i) (hc1 : cond0_1 i)
    (x0 x1 : Vec F S8x3x128x512 .f32) (xs0 xs1 xs2 : Vec F S8x3 .f32) :
    out0_C_3 c i arg2 harg2 arg3 harg3 arg4 harg4 arg5 harg5 arg6 harg6 arg7 harg7 arg8 harg8 hc0 hc1 x0 x1 xs0 xs1 xs2 = k0_pay6 (nx2 x1 xs2) := by
  unfold out0_C_3
  rw [View.read_writes_eq_canon _ _ _ (cover0_C_3 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero hz2]
  simp only [View.readAt_eq_ld, View.readCov_unit_zero (S := S8x3) _ hz2, harg2.read_unread, harg3.read_unread, harg6.read_unread, harg7.read_unread, harg8.read_unread,
    View.ld_unit_zero (S := S8x3) hz2, View.ld_unit_zero (S := S8x3x128x512) hz4]

end Cert.KernelIdeal.Val

end
-- ==== Proof.LibBitMasks.lean ====
import Idealize.ShloMosaic.PureOps.Ideal
import Idealize.ShloMosaic.PureOps.Ideal.Laws

/-!
# Zero/one masks on the extended reals

A one-bit word read as a number is `0` or `1`. This file collects what a count of such masks needs at the ideal
instance: the signed reading of the word widened to 32 bits is its unsigned reading; the conjunction of two words
reads as the product of their readings; the sum of two readings clipped to `[0, 1]` is the reading of their
disjunction, `a + b - a * b` (inclusion and exclusion, entry by entry); a finite sum of real numbers read on the
extended reals is the real sum; and hence the count of a union is the sum of the two counts minus the count of the
intersection, with every quantity a real number.
-/

noncomputable section

namespace Idealize.ShloMosaic.BitMasks

open Idealize.ShloMosaic

/-- A finite sum of real numbers, read term by term on the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The reading of a one-bit word as a real number: `0` or `1`. -/
def bit (u : BitVec 1) : ℝ := (u.toNat : ℝ)

theorem bit_zero : bit 0#1 = 0 := by simp [bit]
theorem bit_one : bit 1#1 = 1 := by simp [bit]

/-- Widened to 32 bits and read signed, a one-bit word is still `0` or `1`. -/
theorem toInt_setWidth (u : BitVec 1) : (((u.setWidth 32).toInt : ℤ) : ℝ) = bit u := by
  rcases BitVec.eq_zero_or_eq_one u with h | h <;> subst h <;> simp [bit] <;> decide

/-- The conjunction of two one-bit words reads as the product. -/
theorem bit_and (u v : BitVec 1) : bit (u &&& v) = bit u * bit v := by
  rcases BitVec.eq_zero_or_eq_one u with h | h <;> rcases BitVec.eq_zero_or_eq_one v with h' | h' <;>
    subst h <;> subst h' <;> simp [bit]

/-- `1.0` and `0.0` in f32. -/
theorem ofBits_one_f32 : Ideal.ofBits .f32 0x3F800000#32 = 1 := by
  simp [Ideal.ofBits, Ideal.ieee]
  rw [← EReal.coe_mul]; norm_num

/-- The sum of two mask entries clipped to `[0, 1]` is `a + b - a * b`: one where either word is set. -/
theorem clip_add (u v : BitVec 1) :
    min (Ideal.ofBits .f32 0x3F800000#32) (max (Ideal.ofBits .f32 0x00000000#32) (((bit u : ℝ) : EReal) + ((bit v : ℝ) : EReal)))
      = ((bit u + bit v - bit u * bit v : ℝ) : EReal) := by
  rw [ofBits_one_f32, Ideal.ofBits_zero_f32]
  rcases BitVec.eq_zero_or_eq_one u with h | h <;> rcases BitVec.eq_zero_or_eq_one v with h' | h' <;>
    subst h <;> subst h' <;> simp [bit_zero, bit_one] <;> norm_num

/-- Inclusion and exclusion for counts: the masks' clipped sums add up to the two counts less the count of the
    conjunction, all real numbers. -/
theorem sum_clip {ι : Type*} (s : Finset ι) (a b : ι → BitVec 1) :
    (∑ i ∈ s, (bit (a i) + bit (b i) - bit (a i) * bit (b i)) : ℝ)
      = (∑ i ∈ s, bit (a i)) + (∑ i ∈ s, bit (b i)) - ∑ i ∈ s, bit (a i &&& b i) := by
  rw [Finset.sum_sub_distrib, Finset.sum_add_distrib]
  simp only [bit_and]

end Idealize.ShloMosaic.BitMasks

end
-- ==== Proof.Spec.lean ====
import Idealize.ShloMosaic.PureOps.Ideal
import Idealize.ShloMosaic.PureOps.Ideal.Laws
import Idealize.ShloMosaic.Lib.ValueIdx
import proofs.«140002_j44796508897918_2_alg».proof.Proof.LibBitMasks

/-!
# The mathematics of the claim: mean intersection-over-union of thresholded masks

Two arrays `X`, `Y` of shape `[64, 3, 512, 512]` are thresholded at one half, entry by entry, into 0/1 masks. For each
image `b` and channel `q` three COUNTS over the `512 × 512` plane matter: the entries set in `X`'s mask, those set in
`Y`'s, and those set in both. Every count is a real number (a natural number, in fact), so the size of the union is
`|X| + |Y| - |X ∧ Y|` with no caveat on the extended reals. The per-plane score is `|X ∧ Y| / |X ∨ Y|` where the union
is not empty and zero elsewhere, kept only where `Y`'s mask is not empty; the second per-plane output is the indicator of
that. What both programs do with the two `[64, 3]` arrays afterwards (a mean over the valid planes of each channel) is
one shared function, `tail`, which this file names and never opens.

The kernel visits a plane in four bands of 128 rows and keeps running counts; `rowsG` is the count over the first `R`
rows, indexed by natural numbers so that a band is an interval of rows.
-/

noncomputable section

namespace Cert.Spec

open Idealize.ShloMosaic Idealize.ShloMosaic.ValueIdx Idealize.ShloMosaic.BitMasks

abbrev A4 : Shape := ⟨4, ![64, 3, 512, 512]⟩
abbrev A2 : Shape := ⟨2, ![64, 3]⟩
abbrev A1 : Shape := ⟨1, ![3]⟩
abbrev A0 : Shape := ⟨0, ![]⟩
abbrev B4 : Shape := ⟨4, ![8, 3, 128, 512]⟩

/-- The threshold test of one entry: is it above one half? -/
def gt (x : EReal) : BitVec 1 := Ideal.cmp .ogt x (Ideal.ofBits .f32 0x3F000000#32)

/-- The three masks of a pair of entries, as real numbers. -/
def gIn (x _y : EReal) : ℝ := bit (gt x)
def gTg (_x y : EReal) : ℝ := bit (gt y)
def gAnd (x y : EReal) : ℝ := bit (gt x &&& gt y)

/-- A count over the whole plane `(b, q)`. -/
def cnt (g : EReal → EReal → ℝ) (X Y : A4.Idx → EReal) (b : Fin 64) (q : Fin 3) : ℝ :=
  ∑ r : Fin 512, ∑ w : Fin 512, g (X (ix4 b q r w)) (Y (ix4 b q r w))

/-- The score of one plane from its three counts `i = |X ∧ Y|`, `u = |X ∨ Y|`, `t = |Y|`. -/
def iouOf (i u t : EReal) : EReal :=
  Scalar.select (Ideal.cmp .ogt t (Ideal.ofBits .f32 0x00000000#32))
    (Scalar.select (Ideal.cmp .ogt u (Ideal.ofBits .f32 0x00000000#32))
      (Ideal.div i (Scalar.select (Ideal.cmp .ogt u (Ideal.ofBits .f32 0x00000000#32)) u (Ideal.ofBits .f32 0x3F800000#32)))
      (Ideal.ofBits .f32 0x00000000#32))
    (Ideal.ofBits .f32 0x00000000#32)

/-- Is the plane's target mask non-empty? As a number. -/
def validOf (t : EReal) : EReal := ((bit (Ideal.cmp .ogt t (Ideal.ofBits .f32 0x00000000#32)) : ℝ) : EReal)

/-- The two `[64, 3]` arrays both programs compute before the shared tail. -/
def Giou (X Y : A4.Idx → EReal) : A2.Idx → EReal := fun j =>
  iouOf ((cnt gAnd X Y (j 0) (j 1) : ℝ) : EReal)
    ((cnt gIn X Y (j 0) (j 1) + cnt gTg X Y (j 0) (j 1) - cnt gAnd X Y (j 0) (j 1) : ℝ) : EReal)
    ((cnt gTg X Y (j 0) (j 1) : ℝ) : EReal)

def Gvalid (X Y : A4.Idx → EReal) : A2.Idx → EReal := fun j => validOf ((cnt gTg X Y (j 0) (j 1) : ℝ) : EReal)

/-- What both programs do with the two `[64, 3]` arrays: per channel, the sum of the scores over the planes divided by the
    number of valid planes where there is one, zero where there is none. Never opened. -/
def tail (iou valid : A2.Idx → EReal) (hr : A2.ReducesTo [0] A1) (h0 : 0 < A0.numel) (hb : A0.BroadcastsInDim A1 (![] : Fin 0 → Fin A1.rank)) :
    A1.Idx → EReal :=
  select (cmpf .ogt (Host.reduceAdd (F := Ideal) valid (constant (F := Ideal) A0 .f32 0x00000000#32) hr h0)
      (broadcastInDim A1 ![] hb (constant (F := Ideal) A0 .f32 0x00000000#32)))
    (Host.divf (F := Ideal) (Host.reduceAdd (F := Ideal) iou (constant (F := Ideal) A0 .f32 0x00000000#32) hr h0)
      (select (cmpf .ogt (Host.reduceAdd (F := Ideal) valid (constant (F := Ideal) A0 .f32 0x00000000#32) hr h0)
          (broadcastInDim A1 ![] hb (constant (F := Ideal) A0 .f32 0x00000000#32)))
        (Host.reduceAdd (F := Ideal) valid (constant (F := Ideal) A0 .f32 0x00000000#32) hr h0)
        (broadcastInDim A1 ![] hb (id (constant (F := Ideal) A0 .f32 0x3F800000#32)))))
    (broadcastInDim A1 ![] hb (id (constant (F := Ideal) A0 .f32 0x00000000#32)))

/-! ## Counts as sums on the extended reals -/

/-- A double sum of real numbers read on the extended reals. -/
theorem coe_dsum {m n : ℕ} (f : Fin m → Fin n → ℝ) :
    ∑ r : Fin m, ∑ w : Fin n, ((f r w : ℝ) : EReal) = ((∑ r : Fin m, ∑ w : Fin n, f r w : ℝ) : EReal) := by
  rw [← coe_sum]
  exact Finset.sum_congr rfl fun r _ => coe_sum _ _

/-- The union's count: entry by entry `a + b - a b`, summed, is the two counts less the count of the conjunction. -/
theorem count_union (X Y : A4.Idx → EReal) (b : Fin 64) (q : Fin 3) :
    (∑ r : Fin 512, ∑ w : Fin 512, (bit (gt (X (ix4 b q r w))) + bit (gt (Y (ix4 b q r w)))
        - bit (gt (X (ix4 b q r w))) * bit (gt (Y (ix4 b q r w)))) : ℝ)
      = cnt gIn X Y b q + cnt gTg X Y b q - cnt gAnd X Y b q := by
  unfold cnt gIn gTg gAnd
  simp only [Finset.sum_sub_distrib, Finset.sum_add_distrib, bit_and]

/-! ## Running counts over the first rows of a plane -/

/-- An entry by natural-number coordinates (zero outside the array: never read there). -/
def at4 (X : A4.Idx → EReal) (b q r w : ℕ) : EReal :=
  if h : b < 64 ∧ q < 3 ∧ r < 512 ∧ w < 512 then X (ix4 ⟨b, h.1⟩ ⟨q, h.2.1⟩ ⟨r, h.2.2.1⟩ ⟨w, h.2.2.2⟩) else 0

theorem at4_fin (X : A4.Idx → EReal) (b : Fin 64) (q : Fin 3) (r : Fin 512) (w : Fin 512) :
    at4 X b.val q.val r.val w.val = X (ix4 b q r w) := by
  unfold at4
  rw [dif_pos ⟨b.isLt, q.isLt, r.isLt, w.isLt⟩]

/-- The count of `g` over rows `0 … R - 1` of plane `(b, q)`. -/
def rowsG (g : EReal → EReal → ℝ) (X Y : A4.Idx → EReal) (b q R : ℕ) : EReal :=
  ∑ r ∈ Finset.range R, ∑ w ∈ Finset.range 512, ((g (at4 X b q r w) (at4 Y b q r w) : ℝ) : EReal)

theorem rowsG_zero (g : EReal → EReal → ℝ) (X Y : A4.Idx → EReal) (b q : ℕ) : rowsG g X Y b q 0 = 0 := by
  simp [rowsG]

/-- One more band of 128 rows: if the blocks `x0`, `x1` hold rows `R … R + 127` of plane `(b, q)` at their
    `(p, q)`, the band's count extends the running count. -/
theorem rowsG_band (g : EReal → EReal → ℝ) (X Y : A4.Idx → EReal) (x0 x1 : B4.Idx → EReal) (b R : ℕ) (p : Fin 8) (q : Fin 3)
    (h0 : ∀ (r : Fin 128) (w : Fin 512), x0 (ix4 p q r w) = at4 X b q.val (R + r.val) w.val)
    (h1 : ∀ (r : Fin 128) (w : Fin 512), x1 (ix4 p q r w) = at4 Y b q.val (R + r.val) w.val) :
    rowsG g X Y b q.val R + ∑ r : Fin 128, ∑ w : Fin 512, ((g (x0 (ix4 p q r w)) (x1 (ix4 p q r w)) : ℝ) : EReal)
      = rowsG g X Y b q.val (R + 128) := by
  unfold rowsG
  rw [Finset.sum_range_add]
  refine congrArg (_ + ·) ?_
  rw [Finset.sum_range]
  refine Finset.sum_congr rfl fun r _ => ?_
  rw [Finset.sum_range]
  refine Finset.sum_congr rfl fun w _ => ?_
  rw [h0, h1]

/-- All 512 rows: the running count is the plane's count. -/
theorem rowsG_full (g : EReal → EReal → ℝ) (X Y : A4.Idx → EReal) (b : Fin 64) (q : Fin 3) :
    rowsG g X Y b.val q.val 512 = ((cnt g X Y b q : ℝ) : EReal) := by
  unfold rowsG cnt
  rw [← coe_dsum, Finset.sum_range]
  refine Finset.sum_congr rfl fun r _ => ?_
  rw [Finset.sum_range]
  refine Finset.sum_congr rfl fun w _ => ?_
  rw [at4_fin, at4_fin]

end Cert.Spec

end
-- ==== Proof.LibTwoAxisSum.lean ====
import Idealize.ShloMosaic.PureOps.Ideal
import Idealize.ShloMosaic.PureOps.Ideal.Laws
import Idealize.ShloMosaic.Lib.ValueIdx
import Idealize.ShloMosaic.Lib.Pipeline.Value

/-!
# A sum over the two trailing axes of an [a, b, c, d] array, read at an entry (p, q)

Two programs of the same sum. The host reduces both axes at once: its result at `(p, q)` is the initial value plus the sum
of the entries `(p, q, r, w)` over all `r` and `w`. The vector unit goes one axis at a time and keeps the dimensions: lanes
first (`[a, b, c, d] → [a, b, c]`, viewed `[a, b, c, 1]`), then sublanes (`→ [a, b, 1]`, viewed `[a, b, 1, 1]` and at
last `[a, b]`); at `(p, q)` that is the sum over `r` of the sums over `w`. Both are the double sum
`∑ r, ∑ w, x (p, q, r, w)` on the extended reals, for any sizes.
-/

noncomputable section

namespace Idealize.ShloMosaic.TwoAxisSum

open Idealize.ShloMosaic Idealize.ShloMosaic.ValueIdx

variable {a b c d : ℕ}

/-- The entries of an `[a, b, c, d]` array that a reduction over axes 2 and 3 sends to `(p, q)` are the `(p, q, r, w)`:
    the filtered sum is the double sum. -/
theorem sum_filter_drop_last2 (h' : (⟨4, ![a, b, c, d]⟩ : Shape).ReducesTo [2, 3] ⟨2, ![a, b]⟩)
    (x : (⟨4, ![a, b, c, d]⟩ : Shape).Idx → EReal) (p : Fin a) (q : Fin b) :
    ∑ i ∈ Finset.univ.filter (fun i => h'.drop i = ix2 p q), x i = ∑ r : Fin c, ∑ w : Fin d, x (ix4 p q r w) := by
  have hdrop : ∀ i : (⟨4, ![a, b, c, d]⟩ : Shape).Idx, h'.drop i = ix2 p q ↔ ((i 0).val = p.val ∧ (i 1).val = q.val) := by
    intro i
    constructor
    · intro e
      exact ⟨congrArg (fun z : (⟨2, ![a, b]⟩ : Shape).Idx => (z 0).val) e, congrArg (fun z : (⟨2, ![a, b]⟩ : Shape).Idx => (z 1).val) e⟩
    · intro e
      funext t
      match t with
      | ⟨0, _⟩ => exact Fin.ext e.1
      | ⟨1, _⟩ => exact Fin.ext e.2
  rw [← Finset.sum_product']
  refine Finset.sum_nbij' (fun i => ((⟨(i 2).val, (i 2).isLt⟩ : Fin c), (⟨(i 3).val, (i 3).isLt⟩ : Fin d)))
    (fun rw => ix4 p q rw.1 rw.2) ?_ ?_ ?_ ?_ ?_
  · intro i _; exact Finset.mem_product.2 ⟨Finset.mem_univ _, Finset.mem_univ _⟩
  · intro rw _; exact Finset.mem_filter.2 ⟨Finset.mem_univ _, (hdrop _).2 ⟨rfl, rfl⟩⟩
  · intro i hi
    have e := (hdrop i).1 (Finset.mem_filter.1 hi).2
    funext t
    match t with
    | ⟨0, _⟩ => exact Fin.ext e.1.symm
    | ⟨1, _⟩ => exact Fin.ext e.2.symm
    | ⟨2, _⟩ => rfl
    | ⟨3, _⟩ => rfl
  · intro rw _; rfl
  · intro i hi
    have e := (hdrop i).1 (Finset.mem_filter.1 hi).2
    refine congrArg x (funext fun t => ?_)
    match t with
    | ⟨0, _⟩ => exact Fin.ext e.1
    | ⟨1, _⟩ => exact Fin.ext e.2
    | ⟨2, _⟩ => rfl
    | ⟨3, _⟩ => rfl

/-- The host's sum over the two trailing axes at `(p, q)`: the initial value plus the double sum. -/
theorem hostReduceAdd_last2 (h' : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h' x init (ix2 p q) = init + ∑ r : Fin c, ∑ w : Fin d, x (ix4 p q r w) := by
  unfold Ideal.hostReduceAdd
  rw [sum_filter_drop_last2]

/-- The vector unit's sum, lanes then sublanes with the dimensions kept, at `(p, q)`: the double sum. -/
theorem reduce_lanes_sublanes (v : FVec Ideal ⟨4, ![a, b, c, d]⟩ .f32) (acc1 acc2 : BitVec 32)
    (h1 : (⟨4, ![a, b, c, d]⟩ : Shape).Reduces [3] ⟨3, ![a, b, c]⟩) (hφ1 : FKind.Formats .f32) (hacc1 : acc1 = FKind.add.neutral .f32 hφ1)
    (hc1 : (⟨3, ![a, b, c]⟩ : Shape).ShapeCasts ⟨4, ![a, b, c, 1]⟩)
    (h2 : (⟨4, ![a, b, c, 1]⟩ : Shape).Reduces [2] ⟨3, ![a, b, 1]⟩) (hφ2 : FKind.Formats .f32) (hacc2 : acc2 = FKind.add.neutral .f32 hφ2)
    (hc2 : (⟨3, ![a, b, 1]⟩ : Shape).ShapeCasts ⟨4, ![a, b, 1, 1]⟩)
    (hc3 : (⟨4, ![a, b, 1, 1]⟩ : Shape).ShapeCasts ⟨2, ![a, b]⟩) (p : Fin a) (q : Fin b) :
    shapeCast ⟨2, ![a, b]⟩ (shapeCast ⟨4, ![a, b, 1, 1]⟩
        (multiReduction .add [2] ⟨3, ![a, b, 1]⟩
          (shapeCast ⟨4, ![a, b, c, 1]⟩ (multiReduction .add [3] ⟨3, ![a, b, c]⟩ v acc1 h1 hφ1 hacc1) hc1) acc2 h2 hφ2 hacc2) hc2) hc3
        (ix2 p q)
      = ∑ r : Fin c, ∑ w : Fin d, v (ix4 p q r w) := by
  have z1 : (0 : Fin 1) = ⟨0, Nat.one_pos⟩ := rfl
  refine (shapeCast_apply _ hc3 (ix2 p q) (ix4 p q (0 : Fin 1) (0 : Fin 1)) ?_).trans ?_
  · rw [Shape.rowMajor_val_four, Shape.rowMajor_val_two]
    show ((p.val * b + q.val) * 1 + 0) * 1 + 0 = p.val * b + q.val
    omega
  refine (shapeCast_apply _ hc2 (ix4 p q (0 : Fin 1) (0 : Fin 1)) (ix3 p q (0 : Fin 1)) ?_).trans ?_
  · rw [Shape.rowMajor_val_four, Shape.rowMajor_val_three]
    show (p.val * b + q.val) * 1 + 0 = ((p.val * b + q.val) * 1 + 0) * 1 + 0
    omega
  refine (Ideal.multiReduction_add_single _ acc2 h2 hφ2 hacc2 (ix3 p q (0 : Fin 1))).trans ?_
  refine Finset.sum_congr rfl fun r _ => ?_
  refine (shapeCast_apply _ hc1 _ (ix3 p q r) ?_).trans ?_
  · rw [Shape.rowMajor_val_four, Shape.rowMajor_val_three]
    show (p.val * b + q.val) * c + r.val = ((p.val * b + q.val) * c + r.val) * 1 + 0
    omega
  refine (Ideal.multiReduction_add_single v acc1 h1 hφ1 hacc1 (ix3 p q r)).trans ?_
  refine Finset.sum_congr rfl fun w _ => congrArg v (funext fun t => ?_)
  match t with
  | ⟨0, _⟩ => rfl
  | ⟨1, _⟩ => rfl
  | ⟨2, _⟩ => rfl
  | ⟨3, _⟩ => rfl

end Idealize.ShloMosaic.TwoAxisSum

end
-- ==== Proof.KPayloads.lean ====
import proofs.«140002_j44796508897918_2_alg».proof.Proof.Gen.KernelIdeal.Skeleton
import proofs.«140002_j44796508897918_2_alg».proof.Proof.Spec
import proofs.«140002_j44796508897918_2_alg».proof.Proof.LibTwoAxisSum
import Idealize.ShloMosaic.Lib.Pipeline.Value

/-!
# The body's arithmetic on the extended reals, entry by entry

One band's contribution to a running count at `(p, q)` is the double sum, over the band's 128 rows and 512 lanes, of a
0/1 mask of the two blocks' entries (the comparison's bit widened and read as a number is the bit's reading); the new
count is the old one plus that. The finishing arithmetic is the plane's score and validity of the three finished
counts, with the union's size computed by inclusion and exclusion.
-/

noncomputable section

open Idealize.ShloMosaic Idealize.ShloMosaic.ValueIdx Idealize.ShloMosaic.BitMasks Idealize.ShloMosaic.TwoAxisSum

namespace Cert.KernelIdeal.Val

open Cert.KernelIdeal Cert.KernelIdeal.Gen Cert.Spec

/-- The zero block a tile's first band stores reads `0` everywhere. -/
theorem pay7_apply (j : S8x3.Idx) : k0_pay7 (F := Ideal) j = 0 := by
  unfold k0_pay7
  rw [shapeCast_self]
  exact Ideal.ofBits_zero_f32
theorem pay8_apply (j : S8x3.Idx) : k0_pay8 (F := Ideal) j = 0 := by
  unfold k0_pay8
  rw [shapeCast_self]
  exact Ideal.ofBits_zero_f32
theorem pay9_apply (j : S8x3.Idx) : k0_pay9 (F := Ideal) j = 0 := by
  unfold k0_pay9
  rw [shapeCast_self]
  exact Ideal.ofBits_zero_f32

/-- The input mask's count: old count plus the band's. -/
theorem count_in_apply (x0 : Vec Ideal S8x3x128x512 .f32) (xs1 : Vec Ideal S8x3 .f32) (p : Fin 8) (q : Fin 3) :
    k0_pay2 (k0_pay12 x0) xs1 (ix2 p q)
      = xs1 (ix2 p q) + ∑ r : Fin 128, ∑ w : Fin 512, ((bit (gt (x0 (ix4 p q r w))) : ℝ) : EReal) := by
  unfold k0_pay2
  rw [shapeCast_self]
  refine congrArg (xs1 (ix2 p q) + ·) ?_
  unfold k0_pay12
  refine (reduce_lanes_sublanes _ _ _ _ _ _ _ _ _ _ _ _ p q).trans ?_
  refine Finset.sum_congr rfl fun r _ => Finset.sum_congr rfl fun w _ => ?_
  exact congrArg (fun z : ℝ => (z : EReal)) (toInt_setWidth _)

/-- The target mask's count. -/
theorem count_tg_apply (x1 : Vec Ideal S8x3x128x512 .f32) (xs2 : Vec Ideal S8x3 .f32) (p : Fin 8) (q : Fin 3) :
    k0_pay3 (k0_pay13 x1) xs2 (ix2 p q)
      = xs2 (ix2 p q) + ∑ r : Fin 128, ∑ w : Fin 512, ((bit (gt (x1 (ix4 p q r w))) : ℝ) : EReal) := by
  unfold k0_pay3
  rw [shapeCast_self]
  refine congrArg (xs2 (ix2 p q) + ·) ?_
  unfold k0_pay13
  refine (reduce_lanes_sublanes _ _ _ _ _ _ _ _ _ _ _ _ p q).trans ?_
  refine Finset.sum_congr rfl fun r _ => Finset.sum_congr rfl fun w _ => ?_
  exact congrArg (fun z : ℝ => (z : EReal)) (toInt_setWidth _)

/-- The count of entries set in both masks. -/
theorem count_and_apply (x0 x1 : Vec Ideal S8x3x128x512 .f32) (xs0 : Vec Ideal S8x3 .f32) (p : Fin 8) (q : Fin 3) :
    k0_pay1 (k0_pay14 x0 x1 xs0) (ix2 p q)
      = xs0 (ix2 p q) + ∑ r : Fin 128, ∑ w : Fin 512, ((bit (gt (x0 (ix4 p q r w)) &&& gt (x1 (ix4 p q r w))) : ℝ) : EReal) := by
  unfold k0_pay1
  rw [shapeCast_self]
  unfold k0_pay14
  refine congrArg (xs0 (ix2 p q) + ·) ?_
  refine (reduce_lanes_sublanes _ _ _ _ _ _ _ _ _ _ _ _ p q).trans ?_
  refine Finset.sum_congr rfl fun r _ => Finset.sum_congr rfl fun w _ => ?_
  exact congrArg (fun z : ℝ => (z : EReal)) (toInt_setWidth _)

/-- The finishing arithmetic of the score: the union by inclusion and exclusion, then the guarded quotient. -/
theorem score_apply (s0 s1 s2 : Vec Ideal S8x3 .f32) (j : S8x3.Idx) :
    k0_pay5 s0 s1 s2 j = iouOf (s0 j) (s1 j + s2 j - s0 j) (s2 j) := rfl

/-- The validity output: the comparison's bit as a number. -/
theorem valid_apply (s2 : Vec Ideal S8x3 .f32) (j : S8x3.Idx) : k0_pay6 s2 j = validOf (s2 j) :=
  congrArg (fun z : ℝ => (z : EReal)) (toInt_setWidth _)

end Cert.KernelIdeal.Val

end
-- ==== Proof.KCounts.lean ====
import proofs.«140002_j44796508897918_2_alg».proof.Proof.KPieces
import proofs.«140002_j44796508897918_2_alg».proof.Proof.KPayloads

/-!
# The running counts, point by point, and the two arrays the region leaves

Grid point `n` is band `n % 4` of batch tile `n / 4`: its two input blocks hold rows `128 (n % 4) … 128 (n % 4) + 127` of
the planes `(8 (n / 4) + p, q)`. By induction on the point, after point `n` each scratch count at `(p, q)` is the count over
the first `128 (n % 4) + 128` rows of that plane: a first band starts from the stored zeros, a later band adds to what the
band before left. At a tile's last band all 512 rows are in, the output blocks are the score and the validity of the finished
counts, and those blocks, one per batch tile, tile the two `[64, 3]` result arrays.
-/

noncomputable section

open Idealize.ShloMosaic Idealize.ShloMosaic.TcCoe Idealize.SL.Sem Idealize.ShloMosaic.ValueIdx Idealize.ShloMosaic.BitMasks
open Idealize.ShloMosaic.Pipeline (Dat)

namespace Cert.KernelIdeal.Val

open Cert.KernelIdeal Cert.KernelIdeal.Gen Cert.Spec

variable (m : (ℓ : Loc nD τ sig) → Buf (Elt Ideal) ℓ) (ρ : Dev nD → PrngReg)

/-- The two argument arrays on core `c`. -/
abbrev X (c : Dev nD) : A4.Idx → EReal := m ((c : Thread nD τ).loc main_arg0)
abbrev Y (c : Dev nD) : A4.Idx → EReal := m ((c : Thread nD τ).loc main_arg1)

/-- The printed index maps, decided over the grid: point `t` reads batch tile `t / 4`, row band `t % 4`, and writes batch
    tile `t / 4` of each result. -/
theorem idx_facts : ∀ t : Fin cfg0.N,
    win0_0.index t (0 : Fin 4) = t.val / 4 ∧ win0_0.index t (1 : Fin 4) = 0 ∧ win0_0.index t (2 : Fin 4) = t.val % 4 ∧ win0_0.index t (3 : Fin 4) = 0
    ∧ win0_1.index t (0 : Fin 4) = t.val / 4 ∧ win0_1.index t (1 : Fin 4) = 0 ∧ win0_1.index t (2 : Fin 4) = t.val % 4 ∧ win0_1.index t (3 : Fin 4) = 0
    ∧ win0_2.index t (0 : Fin 2) = t.val / 4 ∧ win0_2.index t (1 : Fin 2) = 0
    ∧ win0_3.index t (0 : Fin 2) = t.val / 4 ∧ win0_3.index t (1 : Fin 2) = 0 :=
  (by decide +kernel : ∀ t : Fin grid0.N, _)

/-- The first input's block at point `t`, entry by entry. -/
theorem iblk0_apply (c : Dev nD) (t : Fin cfg0.N) (p : Fin 8) (q : Fin 3) (r : Fin 128) (w : Fin 512) :
    (iblk m c 0 t : Vec Ideal S8x3x128x512 .f32) (ix4 p q r w)
      = at4 (X m c) (8 * (t.val / 4) + p.val) q.val (128 * (t.val % 4) + r.val) w.val := by
  obtain ⟨e0, e1, e2, e3, -⟩ := idx_facts t
  have hN : t.val < 32 := lt_of_lt_of_eq t.isLt N_0
  have hp := p.isLt; have hq := q.isLt; have hr := r.isLt; have hw := w.isLt
  unfold at4
  rw [dif_pos ⟨by omega, hq, by omega, hw⟩]
  unfold iblk
  rw [View.read_apply]
  show V m c main_arg0 _ = _
  refine congrArg (m ((c : Thread nD τ).loc main_arg0)) (funext fun a => Fin.ext ?_)
  match a with
  | ⟨0, _⟩ => show win0_0.index t (0 : Fin 4) * 8 + 1 * p.val = 8 * (t.val / 4) + p.val; rw [e0]; omega
  | ⟨1, _⟩ => show win0_0.index t (1 : Fin 4) * 3 + 1 * q.val = q.val; rw [e1]; omega
  | ⟨2, _⟩ => show win0_0.index t (2 : Fin 4) * 128 + 1 * r.val = 128 * (t.val % 4) + r.val; rw [e2]; omega
  | ⟨3, _⟩ => show win0_0.index t (3 : Fin 4) * 512 + 1 * w.val = w.val; rw [e3]; omega

/-- The second input's block at point `t`, entry by entry. -/
theorem iblk1_apply (c : Dev nD) (t : Fin cfg0.N) (p : Fin 8) (q : Fin 3) (r : Fin 128) (w : Fin 512) :
    (iblk m c 1 t : Vec Ideal S8x3x128x512 .f32) (ix4 p q r w)
      = at4 (Y m c) (8 * (t.val / 4) + p.val) q.val (128 * (t.val % 4) + r.val) w.val := by
  obtain ⟨-, -, -, -, e0, e1, e2, e3, -⟩ := idx_facts t
  have hN : t.val < 32 := lt_of_lt_of_eq t.isLt N_0
  have hp := p.isLt; have hq := q.isLt; have hr := r.isLt; have hw := w.isLt
  unfold at4
  rw [dif_pos ⟨by omega, hq, by omega, hw⟩]
  unfold iblk
  rw [View.read_apply]
  show V m c main_arg1 _ = _
  refine congrArg (m ((c : Thread nD τ).loc main_arg1)) (funext fun a => Fin.ext ?_)
  match a with
  | ⟨0, _⟩ => show win0_1.index t (0 : Fin 4) * 8 + 1 * p.val = 8 * (t.val / 4) + p.val; rw [e0]; omega
  | ⟨1, _⟩ => show win0_1.index t (1 : Fin 4) * 3 + 1 * q.val = q.val; rw [e1]; omega
  | ⟨2, _⟩ => show win0_1.index t (2 : Fin 4) * 128 + 1 * r.val = 128 * (t.val % 4) + r.val; rw [e2]; omega
  | ⟨3, _⟩ => show win0_1.index t (3 : Fin 4) * 512 + 1 * w.val = w.val; rw [e3]; omega

/-- THE RUNNING COUNTS. After point `n` the three scratch counts at `(p, q)` are the counts of the three masks over the
    first `128 (n % 4) + 128` rows of plane `(8 (n / 4) + p, q)`. -/
theorem counts_eq (c : Dev nD) : ∀ (n : ℕ) (h : n < cfg0.N) (p : Fin 8) (q : Fin 3),
    (outsAt0 m c n h).2.2.1 (ix2 p q) = rowsG gAnd (X m c) (Y m c) (8 * (n / 4) + p.val) q.val (128 * (n % 4) + 128)
    ∧ (outsAt0 m c n h).2.2.2.1 (ix2 p q) = rowsG gIn (X m c) (Y m c) (8 * (n / 4) + p.val) q.val (128 * (n % 4) + 128)
    ∧ (outsAt0 m c n h).2.2.2.2 (ix2 p q) = rowsG gTg (X m c) (Y m c) (8 * (n / 4) + p.val) q.val (128 * (n % 4) + 128)
  | n, h, p, q => by
    have hN : cfg0.N = 32 := N_0
    let t : Fin cfg0.N := ⟨n, h⟩
    have hband : ∀ g : EReal → EReal → ℝ,
        rowsG g (X m c) (Y m c) (8 * (n / 4) + p.val) q.val (128 * (n % 4))
          + ∑ r : Fin 128, ∑ w : Fin 512, ((g ((iblk m c 0 t : Vec Ideal S8x3x128x512 .f32) (ix4 p q r w))
              ((iblk m c 1 t : Vec Ideal S8x3x128x512 .f32) (ix4 p q r w)) : ℝ) : EReal)
          = rowsG g (X m c) (Y m c) (8 * (n / 4) + p.val) q.val (128 * (n % 4) + 128) := fun g =>
      rowsG_band g (X m c) (Y m c) _ _ (8 * (n / 4) + p.val) (128 * (n % 4)) p q
        (fun r w => iblk0_apply m c t p q r w) (fun r w => iblk1_apply m c t p q r w)
    by_cases h0 : n % 4 = 0
    · have h1 : ¬n % 4 = 3 := by omega
      have hc0 : cond0_0 (grid0.coords t) := (hcond0_0 t).mpr h0
      have hc1 : ¬cond0_1 (grid0.coords t) := fun hh => h1 ((hcond0_1 t).mp hh)
      have hR : 128 * (n % 4) = 0 := by omega
      rw [outsAt0_A m c t h0 h1]
      dsimp only
      refine ⟨?_, ?_, ?_⟩
      · refine (congrFun (sA0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t)) (ix2 p q)).trans ?_
        refine (count_and_apply (iblk m c 0 t) (iblk m c 1 t) (k0_pay7 (F := Ideal)) p q).trans ?_
        rw [pay7_apply, ← hband gAnd, hR, rowsG_zero]
        rfl
      · refine (congrFun (sA1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t)) (ix2 p q)).trans ?_
        refine (count_in_apply (iblk m c 0 t) (k0_pay8 (F := Ideal)) p q).trans ?_
        rw [pay8_apply, ← hband gIn, hR, rowsG_zero]
        rfl
      · refine (congrFun (sA2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t)) (ix2 p q)).trans ?_
        refine (count_tg_apply (iblk m c 1 t) (k0_pay9 (F := Ideal)) p q).trans ?_
        rw [pay9_apply, ← hband gTg, hR, rowsG_zero]
        rfl
    · have hlt : n - 1 < cfg0.N := by omega
      have ih := counts_eq c (n - 1) hlt p q
      have e1 : (n - 1) / 4 = n / 4 := by omega
      have e2 : 128 * ((n - 1) % 4) + 128 = 128 * (n % 4) := by omega
      by_cases h1 : n % 4 = 3
      · have hc0 : ¬cond0_0 (grid0.coords t) := fun hh => h0 ((hcond0_0 t).mp hh)
        have hc1 : cond0_1 (grid0.coords t) := (hcond0_1 t).mpr h1
        rw [outsAt0_C m c t h0 h1]
        dsimp only
        refine ⟨?_, ?_, ?_⟩
        · refine (congrFun (sC0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (outsAt0 m c (n - 1) hlt).2.2.1 (outsAt0 m c (n - 1) hlt).2.2.2.1 (outsAt0 m c (n - 1) hlt).2.2.2.2) (ix2 p q)).trans ?_
          refine (count_and_apply (iblk m c 0 t) (iblk m c 1 t) (outsAt0 m c (n - 1) hlt).2.2.1 p q).trans ?_
          rw [ih.1, e1, e2, ← hband gAnd]
          rfl
        · refine (congrFun (sC1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (outsAt0 m c (n - 1) hlt).2.2.1 (outsAt0 m c (n - 1) hlt).2.2.2.1 (outsAt0 m c (n - 1) hlt).2.2.2.2) (ix2 p q)).trans ?_
          refine (count_in_apply (iblk m c 0 t) (outsAt0 m c (n - 1) hlt).2.2.2.1 p q).trans ?_
          rw [ih.2.1, e1, e2, ← hband gIn]
          rfl
        · refine (congrFun (sC2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (outsAt0 m c (n - 1) hlt).2.2.1 (outsAt0 m c (n - 1) hlt).2.2.2.1 (outsAt0 m c (n - 1) hlt).2.2.2.2) (ix2 p q)).trans ?_
          refine (count_tg_apply (iblk m c 1 t) (outsAt0 m c (n - 1) hlt).2.2.2.2 p q).trans ?_
          rw [ih.2.2, e1, e2, ← hband gTg]
          rfl
      · have hc0 : ¬cond0_0 (grid0.coords t) := fun hh => h0 ((hcond0_0 t).mp hh)
        have hc1 : ¬cond0_1 (grid0.coords t) := fun hh => h1 ((hcond0_1 t).mp hh)
        rw [outsAt0_B m c t h0 h1]
        dsimp only
        refine ⟨?_, ?_, ?_⟩
        · refine (congrFun (sB0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (outsAt0 m c (n - 1) hlt).2.2.1 (outsAt0 m c (n - 1) hlt).2.2.2.1 (outsAt0 m c (n - 1) hlt).2.2.2.2) (ix2 p q)).trans ?_
          refine (count_and_apply (iblk m c 0 t) (iblk m c 1 t) (outsAt0 m c (n - 1) hlt).2.2.1 p q).trans ?_
          rw [ih.1, e1, e2, ← hband gAnd]
          rfl
        · refine (congrFun (sB1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (outsAt0 m c (n - 1) hlt).2.2.1 (outsAt0 m c (n - 1) hlt).2.2.2.1 (outsAt0 m c (n - 1) hlt).2.2.2.2) (ix2 p q)).trans ?_
          refine (count_in_apply (iblk m c 0 t) (outsAt0 m c (n - 1) hlt).2.2.2.1 p q).trans ?_
          rw [ih.2.1, e1, e2, ← hband gIn]
          rfl
        · refine (congrFun (sB2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (outsAt0 m c (n - 1) hlt).2.2.1 (outsAt0 m c (n - 1) hlt).2.2.2.1 (outsAt0 m c (n - 1) hlt).2.2.2.2) (ix2 p q)).trans ?_
          refine (count_tg_apply (iblk m c 1 t) (outsAt0 m c (n - 1) hlt).2.2.2.2 p q).trans ?_
          rw [ih.2.2, e1, e2, ← hband gTg]
          rfl
  termination_by n => n
  decreasing_by omega

/-! ## A tile's last band: the output blocks -/

/-- After a tile's last band the three counts at `(p, q)` are the whole planes' counts. -/
theorem counts_last (c : Dev nD) (t : Fin cfg0.N) (h3 : t.val % 4 = 3) (p : Fin 8) (q : Fin 3)
    (hb : 8 * (t.val / 4) + p.val < 64) :
    (outsAt0 m c t.val t.isLt).2.2.1 (ix2 p q) = ((cnt gAnd (X m c) (Y m c) ⟨8 * (t.val / 4) + p.val, hb⟩ q : ℝ) : EReal)
    ∧ (outsAt0 m c t.val t.isLt).2.2.2.1 (ix2 p q) = ((cnt gIn (X m c) (Y m c) ⟨8 * (t.val / 4) + p.val, hb⟩ q : ℝ) : EReal)
    ∧ (outsAt0 m c t.val t.isLt).2.2.2.2 (ix2 p q) = ((cnt gTg (X m c) (Y m c) ⟨8 * (t.val / 4) + p.val, hb⟩ q : ℝ) : EReal) := by
  have hs := counts_eq m c t.val t.isLt p q
  have e : 128 * (t.val % 4) + 128 = 512 := by omega
  rw [e] at hs
  exact ⟨hs.1.trans (rowsG_full gAnd (X m c) (Y m c) ⟨8 * (t.val / 4) + p.val, hb⟩ q),
    hs.2.1.trans (rowsG_full gIn (X m c) (Y m c) ⟨8 * (t.val / 4) + p.val, hb⟩ q),
    hs.2.2.trans (rowsG_full gTg (X m c) (Y m c) ⟨8 * (t.val / 4) + p.val, hb⟩ q)⟩

/-- The score block a tile's last band leaves: the planes' scores. -/
theorem out_iou_apply (c : Dev nD) (t : Fin cfg0.N) (h3 : t.val % 4 = 3) (p : Fin 8) (q : Fin 3)
    (hb : 8 * (t.val / 4) + p.val < 64) :
    (outsAt0 m c t.val t.isLt).1 (ix2 p q) = Giou (X m c) (Y m c) (ix2 ⟨8 * (t.val / 4) + p.val, hb⟩ q) := by
  have hN : cfg0.N = 32 := N_0
  have h0 : ¬t.val % 4 = 0 := by omega
  have hlt : t.val - 1 < cfg0.N := by have := t.isLt; omega
  have hc0 : ¬cond0_0 (grid0.coords t) := fun hh => h0 ((hcond0_0 t).mp hh)
  have hc1 : cond0_1 (grid0.coords t) := (hcond0_1 t).mpr h3
  obtain ⟨k0, k1, k2⟩ := counts_last m c t h3 p q hb
  rw [outsAt0_C m c t h0 h3] at k0 k1 k2 ⊢
  dsimp only at k0 k1 k2 ⊢
  rw [sC0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (outsAt0 m c (t.val - 1) hlt).2.2.1 (outsAt0 m c (t.val - 1) hlt).2.2.2.1 (outsAt0 m c (t.val - 1) hlt).2.2.2.2] at k0
  rw [sC1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (outsAt0 m c (t.val - 1) hlt).2.2.1 (outsAt0 m c (t.val - 1) hlt).2.2.2.1 (outsAt0 m c (t.val - 1) hlt).2.2.2.2] at k1
  rw [sC2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (outsAt0 m c (t.val - 1) hlt).2.2.1 (outsAt0 m c (t.val - 1) hlt).2.2.2.1 (outsAt0 m c (t.val - 1) hlt).2.2.2.2] at k2
  refine (congrFun (oC2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (outsAt0 m c (t.val - 1) hlt).2.2.1 (outsAt0 m c (t.val - 1) hlt).2.2.2.1 (outsAt0 m c (t.val - 1) hlt).2.2.2.2) (ix2 p q)).trans ?_
  rw [score_apply, k0, k1, k2, ← EReal.coe_add, ← EReal.coe_sub]
  rfl

/-- The validity block a tile's last band leaves. -/
theorem out_valid_apply (c : Dev nD) (t : Fin cfg0.N) (h3 : t.val % 4 = 3) (p : Fin 8) (q : Fin 3)
    (hb : 8 * (t.val / 4) + p.val < 64) :
    (outsAt0 m c t.val t.isLt).2.1 (ix2 p q) = Gvalid (X m c) (Y m c) (ix2 ⟨8 * (t.val / 4) + p.val, hb⟩ q) := by
  have hN : cfg0.N = 32 := N_0
  have h0 : ¬t.val % 4 = 0 := by omega
  have hlt : t.val - 1 < cfg0.N := by have := t.isLt; omega
  have hc0 : ¬cond0_0 (grid0.coords t) := fun hh => h0 ((hcond0_0 t).mp hh)
  have hc1 : cond0_1 (grid0.coords t) := (hcond0_1 t).mpr h3
  obtain ⟨-, -, k2⟩ := counts_last m c t h3 p q hb
  rw [outsAt0_C m c t h0 h3] at k2 ⊢
  dsimp only at k2 ⊢
  rw [sC2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (outsAt0 m c (t.val - 1) hlt).2.2.1 (outsAt0 m c (t.val - 1) hlt).2.2.2.1 (outsAt0 m c (t.val - 1) hlt).2.2.2.2] at k2
  refine (congrFun (oC3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (outsAt0 m c (t.val - 1) hlt).2.2.1 (outsAt0 m c (t.val - 1) hlt).2.2.2.1 (outsAt0 m c (t.val - 1) hlt).2.2.2.2) (ix2 p q)).trans ?_
  rw [valid_apply, k2]
  rfl

/-! ## From blocks to the two result arrays -/

/-- What a flushing point writes back of the score array is its block of `Giou`. -/
theorem flushed2_eq (c : Dev nD) (t : Fin cfg0.N) (hf : (cfg0.win 2).flush t = true) :
    (dats m 0 c).flushed 2 t = ((cfg0.win 2).blk t).view.read (Elt Ideal) (Giou (X m c) (Y m c)) := by
  have h3 : t.val % 4 = 3 := (flush0_2 t).mp hf
  have hN : t.val < 32 := lt_of_lt_of_eq t.isLt N_0
  obtain ⟨-, -, -, -, -, -, -, -, e0, e1, -⟩ := idx_facts t
  show (cfg0.win 2).cut (grid0.coords t) ((dats m 0 c).after 2 t) = _
  rw [after0_2]
  funext y
  obtain ⟨p, q, rfl⟩ : ∃ (p : Fin 8) (q : Fin 3), y = ix2 p q := ⟨y 0, y 1, eq_ix2 y⟩
  have hp := p.isLt; have hq := q.isLt
  have hb : 8 * (t.val / 4) + p.val < 64 := by omega
  rw [View.read_apply]
  refine (out_iou_apply m c t h3 p q hb).trans ?_
  refine congrArg (Giou (X m c) (Y m c)) (funext fun a => Fin.ext ?_)
  match a with
  | ⟨0, _⟩ => show 8 * (t.val / 4) + p.val = win0_2.index t (0 : Fin 2) * 8 + 1 * p.val; rw [e0]; omega
  | ⟨1, _⟩ => show q.val = win0_2.index t (1 : Fin 2) * 3 + 1 * q.val; rw [e1]; omega

/-- What a flushing point writes back of the validity array is its block of `Gvalid`. -/
theorem flushed3_eq (c : Dev nD) (t : Fin cfg0.N) (hf : (cfg0.win 3).flush t = true) :
    (dats m 0 c).flushed 3 t = ((cfg0.win 3).blk t).view.read (Elt Ideal) (Gvalid (X m c) (Y m c)) := by
  have h3 : t.val % 4 = 3 := (flush0_3 t).mp hf
  have hN : t.val < 32 := lt_of_lt_of_eq t.isLt N_0
  obtain ⟨-, -, -, -, -, -, -, -, -, -, e0, e1⟩ := idx_facts t
  show (cfg0.win 3).cut (grid0.coords t) ((dats m 0 c).after 3 t) = _
  rw [after0_3]
  funext y
  obtain ⟨p, q, rfl⟩ : ∃ (p : Fin 8) (q : Fin 3), y = ix2 p q := ⟨y 0, y 1, eq_ix2 y⟩
  have hp := p.isLt; have hq := q.isLt
  have hb : 8 * (t.val / 4) + p.val < 64 := by omega
  rw [View.read_apply]
  refine (out_valid_apply m c t h3 p q hb).trans ?_
  refine congrArg (Gvalid (X m c) (Y m c)) (funext fun a => Fin.ext ?_)
  match a with
  | ⟨0, _⟩ => show 8 * (t.val / 4) + p.val = win0_3.index t (0 : Fin 2) * 8 + 1 * p.val; rw [e0]; omega
  | ⟨1, _⟩ => show q.val = win0_3.index t (1 : Fin 2) * 3 + 1 * q.val; rw [e1]; omega

/-- An index of a result array is in point `t`'s block iff each coordinate is in the block's range. -/
theorem mem_blk2 (t : Fin cfg0.N) (i : S64x3.Idx) :
    i ∈ ((cfg0.win 2).blk t).view.set ↔ ∀ a : Fin 2, win0_2.index t a * S8x3.size a ≤ (i a).val ∧ (i a).val < win0_2.index t a * S8x3.size a + S8x3.size a := by
  show i ∈ ((View.whole main_v0_0).slice (win0_2.rect t)).set ↔ _
  rw [View.set_slice_whole, Rect.mem_set_unit]
  exact Iff.rfl
theorem mem_blk3 (t : Fin cfg0.N) (i : S64x3.Idx) :
    i ∈ ((cfg0.win 3).blk t).view.set ↔ ∀ a : Fin 2, win0_3.index t a * S8x3.size a ≤ (i a).val ∧ (i a).val < win0_3.index t a * S8x3.size a + S8x3.size a := by
  show i ∈ ((View.whole main_v0_1).slice (win0_3.rect t)).set ↔ _
  rw [View.set_slice_whole, Rect.mem_set_unit]
  exact Iff.rfl

/-- Row `b` of a result array is written back by the last band of batch tile `b / 8`. -/
theorem cover2 (i : S64x3.Idx) : ∃ t : Fin cfg0.N, (cfg0.win 2).flush t = true ∧ i ∈ ((cfg0.win 2).blk t).view.set := by
  have hi0 : (i 0).val < 64 := (i 0).isLt
  have hi1 : (i 1).val < 3 := (i 1).isLt
  have hN : cfg0.N = 32 := N_0
  let t : Fin cfg0.N := ⟨4 * ((i 0).val / 8) + 3, by omega⟩
  obtain ⟨-, -, -, -, -, -, -, -, e0, e1, -⟩ := idx_facts t
  have ht : t.val = 4 * ((i 0).val / 8) + 3 := rfl
  refine ⟨t, (flush0_2 t).mpr (by omega), ?_⟩
  rw [mem_blk2]
  intro a
  match a with
  | ⟨0, _⟩ => show win0_2.index t (0 : Fin 2) * 8 ≤ (i 0).val ∧ (i 0).val < win0_2.index t (0 : Fin 2) * 8 + 8; rw [e0]; omega
  | ⟨1, _⟩ => show win0_2.index t (1 : Fin 2) * 3 ≤ (i 1).val ∧ (i 1).val < win0_2.index t (1 : Fin 2) * 3 + 3; rw [e1]; omega
theorem cover3 (i : S64x3.Idx) : ∃ t : Fin cfg0.N, (cfg0.win 3).flush t = true ∧ i ∈ ((cfg0.win 3).blk t).view.set := by
  have hi0 : (i 0).val < 64 := (i 0).isLt
  have hi1 : (i 1).val < 3 := (i 1).isLt
  have hN : cfg0.N = 32 := N_0
  let t : Fin cfg0.N := ⟨4 * ((i 0).val / 8) + 3, by omega⟩
  obtain ⟨-, -, -, -, -, -, -, -, -, -, e0, e1⟩ := idx_facts t
  have ht : t.val = 4 * ((i 0).val / 8) + 3 := rfl
  refine ⟨t, (flush0_3 t).mpr (by omega), ?_⟩
  rw [mem_blk3]
  intro a
  match a with
  | ⟨0, _⟩ => show win0_3.index t (0 : Fin 2) * 8 ≤ (i 0).val ∧ (i 0).val < win0_3.index t (0 : Fin 2) * 8 + 8; rw [e0]; omega
  | ⟨1, _⟩ => show win0_3.index t (1 : Fin 2) * 3 ≤ (i 1).val ∧ (i 1).val < win0_3.index t (1 : Fin 2) * 3 + 3; rw [e1]; omega

/-- THE TWO RESULT ARRAYS after the region: the planes' scores and validities. -/
theorem final2 (c : Dev nD) : (dats m 0 c).arrAt 2 cfg0.N = Giou (X m c) (Y m c) :=
  (dats m 0 c).arrAt_eq_of_cover 2 (Giou (X m c) (Y m c)) (flushed2_eq m c) cover2
theorem final3 (c : Dev nD) : (dats m 0 c).arrAt 3 cfg0.N = Gvalid (X m c) (Y m c) :=
  (dats m 0 c).arrAt_eq_of_cover 3 (Gvalid (X m c) (Y m c)) (flushed3_eq m c) cover3

end Cert.KernelIdeal.Val

end
-- ==== Proof.KRun.lean ====
import proofs.«140002_j44796508897918_2_alg».proof.Proof.KCounts
import Idealize.ShloMosaic.Lib.StableHlo.Run

/-!
# The kernel's run, read

After the region the program sums the two `[64, 3]` arrays over the batch and takes the guarded quotient per channel: the
shared tail, applied to whatever the region left in the two arrays. The region left the planes' scores and validities
(`final2`, `final3`), so each of the three results is an entry of the tail of those two specified arrays; the argument
arrays are never written.
-/

noncomputable section

open Idealize.ShloMosaic Idealize.ShloMosaic.TcCoe Idealize.SL.Sem Idealize.ShloMosaic.StableHlo
open Idealize.ShloMosaic.Pipeline (Dat)

namespace Cert.KernelIdeal.Val

open Cert.KernelIdeal Cert.KernelIdeal.Gen Cert.Spec

/-! ## The host lines after the region, over any contents: the shared tail of the two arrays -/

set_option maxHeartbeats 4000000 in
theorem tail_v11 (W : Valuation τ sig (Elt Ideal)) :
    StableHlo.after (List.flatten [hostOps1, hostOps1_1, hostOps1_2, hostOps1_3, hostOps1_4]) W (Proc.devRef .tc main_v11)
      = shapeCast S_ (extractStridedSlice S1 ![0]
          (tail (W (Proc.devRef .tc main_v0_0)) (W (Proc.devRef .tc main_v0_1)) reducesTo_S64x3_S3_d0 h_S_ bcast_S_S3) slices_S3_S1_0) shapeCasts_S1_S_ := by
  simp only [hostOps1, hostOps1_1, hostOps1_2, hostOps1_3, hostOps1_4, List.flatten_cons, List.flatten_nil, List.append_nil, List.cons_append, List.nil_append]
  after_results_simp
  rfl

set_option maxHeartbeats 4000000 in
theorem tail_v13 (W : Valuation τ sig (Elt Ideal)) :
    StableHlo.after (List.flatten [hostOps1, hostOps1_1, hostOps1_2, hostOps1_3, hostOps1_4]) W (Proc.devRef .tc main_v13)
      = shapeCast S_ (extractStridedSlice S1 ![1]
          (tail (W (Proc.devRef .tc main_v0_0)) (W (Proc.devRef .tc main_v0_1)) reducesTo_S64x3_S3_d0 h_S_ bcast_S_S3) slices_S3_S1_1) shapeCasts_S1_S_ := by
  simp only [hostOps1, hostOps1_1, hostOps1_2, hostOps1_3, hostOps1_4, List.flatten_cons, List.flatten_nil, List.append_nil, List.cons_append, List.nil_append]
  after_results_simp
  rfl

set_option maxHeartbeats 4000000 in
theorem tail_v15 (W : Valuation τ sig (Elt Ideal)) :
    StableHlo.after (List.flatten [hostOps1, hostOps1_1, hostOps1_2, hostOps1_3, hostOps1_4]) W (Proc.devRef .tc main_v15)
      = shapeCast S_ (extractStridedSlice S1 ![2]
          (tail (W (Proc.devRef .tc main_v0_0)) (W (Proc.devRef .tc main_v0_1)) reducesTo_S64x3_S3_d0 h_S_ bcast_S_S3) slices_S3_S1_2) shapeCasts_S1_S_ := by
  simp only [hostOps1, hostOps1_1, hostOps1_2, hostOps1_3, hostOps1_4, List.flatten_cons, List.flatten_nil, List.append_nil, List.cons_append, List.nil_append]
  after_results_simp
  rfl

variable (m : (ℓ : Loc nD τ sig) → Buf (Elt Ideal) ℓ) (ρ : Dev nD → PrngReg)

/-- Result 0 after the run: entry 0 of the shared tail of the two specified arrays. -/
theorem res_v11 (c : Dev nD) :
    Pipeline.afterTail₀ cfgs (dats m) 0 (V0 m) [hostOps1, hostOps1_1, hostOps1_2, hostOps1_3, hostOps1_4] c main_v11
      = shapeCast S_ (extractStridedSlice S1 ![0]
          (tail (Giou (X m c) (Y m c)) (Gvalid (X m c) (Y m c)) reducesTo_S64x3_S3_d0 h_S_ bcast_S_S3) slices_S3_S1_0) shapeCasts_S1_S_ := by
  unfold Pipeline.afterTail₀
  refine (tail_v11 _).trans ?_
  have e2 : Pipeline.withArrays (cfgs 0).spec c (V0 m c) (fun w => (dats m 0 c).arrAt w (cfgs 0).N) (Proc.devRef .tc main_v0_0)
      = Giou (X m c) (Y m c) :=
    (Pipeline.withArrays_arr (cfgs 0).spec launch0.win.arr_inj c _ _ 2).trans (final2 m c)
  have e3 : Pipeline.withArrays (cfgs 0).spec c (V0 m c) (fun w => (dats m 0 c).arrAt w (cfgs 0).N) (Proc.devRef .tc main_v0_1)
      = Gvalid (X m c) (Y m c) :=
    (Pipeline.withArrays_arr (cfgs 0).spec launch0.win.arr_inj c _ _ 3).trans (final3 m c)
  rw [e2, e3]

/-- Result 1 after the run: entry 1 of the shared tail of the two specified arrays. -/
theorem res_v13 (c : Dev nD) :
    Pipeline.afterTail₀ cfgs (dats m) 0 (V0 m) [hostOps1, hostOps1_1, hostOps1_2, hostOps1_3, hostOps1_4] c main_v13
      = shapeCast S_ (extractStridedSlice S1 ![1]
          (tail (Giou (X m c) (Y m c)) (Gvalid (X m c) (Y m c)) reducesTo_S64x3_S3_d0 h_S_ bcast_S_S3) slices_S3_S1_1) shapeCasts_S1_S_ := by
  unfold Pipeline.afterTail₀
  refine (tail_v13 _).trans ?_
  have e2 : Pipeline.withArrays (cfgs 0).spec c (V0 m c) (fun w => (dats m 0 c).arrAt w (cfgs 0).N) (Proc.devRef .tc main_v0_0)
      = Giou (X m c) (Y m c) :=
    (Pipeline.withArrays_arr (cfgs 0).spec launch0.win.arr_inj c _ _ 2).trans (final2 m c)
  have e3 : Pipeline.withArrays (cfgs 0).spec c (V0 m c) (fun w => (dats m 0 c).arrAt w (cfgs 0).N) (Proc.devRef .tc main_v0_1)
      = Gvalid (X m c) (Y m c) :=
    (Pipeline.withArrays_arr (cfgs 0).spec launch0.win.arr_inj c _ _ 3).trans (final3 m c)
  rw [e2, e3]

/-- Result 2 after the run: entry 2 of the shared tail of the two specified arrays. -/
theorem res_v15 (c : Dev nD) :
    Pipeline.afterTail₀ cfgs (dats m) 0 (V0 m) [hostOps1, hostOps1_1, hostOps1_2, hostOps1_3, hostOps1_4] c main_v15
      = shapeCast S_ (extractStridedSlice S1 ![2]
          (tail (Giou (X m c) (Y m c)) (Gvalid (X m c) (Y m c)) reducesTo_S64x3_S3_d0 h_S_ bcast_S_S3) slices_S3_S1_2) shapeCasts_S1_S_ := by
  unfold Pipeline.afterTail₀
  refine (tail_v15 _).trans ?_
  have e2 : Pipeline.withArrays (cfgs 0).spec c (V0 m c) (fun w => (dats m 0 c).arrAt w (cfgs 0).N) (Proc.devRef .tc main_v0_0)
      = Giou (X m c) (Y m c) :=
    (Pipeline.withArrays_arr (cfgs 0).spec launch0.win.arr_inj c _ _ 2).trans (final2 m c)
  have e3 : Pipeline.withArrays (cfgs 0).spec c (V0 m c) (fun w => (dats m 0 c).arrAt w (cfgs 0).N) (Proc.devRef .tc main_v0_1)
      = Gvalid (X m c) (Y m c) :=
    (Pipeline.withArrays_arr (cfgs 0).spec launch0.win.arr_inj c _ _ 3).trans (final3 m c)
  rw [e2, e3]

/-- The three results are buffers the region does not stage. -/
theorem mem_v11 : main_v11 ∈ Pipeline.restRefs sig (cfgs 0).spec :=
  Pipeline.mem_restRefs_of main_v11 rfl (by decide)
theorem mem_v13 : main_v13 ∈ Pipeline.restRefs sig (cfgs 0).spec :=
  Pipeline.mem_restRefs_of main_v13 rfl (by decide)
theorem mem_v15 : main_v15 ∈ Pipeline.restRefs sig (cfgs 0).spec :=
  Pipeline.mem_restRefs_of main_v15 rfl (by decide)

/-- THE RUN: every weakly fair execution terminates with the three results at the tail's entries of the specified arrays
    and the arguments unchanged. -/
theorem run : θ_run defs (onTc (τ := τ) (main (F := Ideal))) ⟨m, fun _ => 0, ρ⟩ fun r => ∀ c : Dev nD,
      r.2.mem ((c.tc : Thread nD τ).loc main_v11)
        = shapeCast S_ (extractStridedSlice S1 ![0] (tail (Giou (X m c) (Y m c)) (Gvalid (X m c) (Y m c)) reducesTo_S64x3_S3_d0 h_S_ bcast_S_S3) slices_S3_S1_0) shapeCasts_S1_S_
      ∧ r.2.mem ((c.tc : Thread nD τ).loc main_v13)
        = shapeCast S_ (extractStridedSlice S1 ![1] (tail (Giou (X m c) (Y m c)) (Gvalid (X m c) (Y m c)) reducesTo_S64x3_S3_d0 h_S_ bcast_S_S3) slices_S3_S1_1) shapeCasts_S1_S_
      ∧ r.2.mem ((c.tc : Thread nD τ).loc main_v15)
        = shapeCast S_ (extractStridedSlice S1 ![2] (tail (Giou (X m c) (Y m c)) (Gvalid (X m c) (Y m c)) reducesTo_S64x3_S3_d0 h_S_ bcast_S_S3) slices_S3_S1_2) shapeCasts_S1_S_
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v11 mem_v11).trans (res_v11 m c),
      ((h c).2 main_v13 mem_v13).trans (res_v13 m c),
      ((h c).2 main_v15 mem_v15).trans (res_v15 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Val

end
-- ==== Proof.RefValue.lean ====
import proofs.«140002_j44796508897918_2_alg».proof.Proof.RefRead
import proofs.«140002_j44796508897918_2_alg».proof.Proof.Spec
import proofs.«140002_j44796508897918_2_alg».proof.Proof.LibTwoAxisSum

/-!
# The reference, stage by stage, is the specification

The reference thresholds both arrays into 0/1 masks (the comparison's bit read unsigned), multiplies them for the
intersection, clips their sum to `[0, 1]` for the union, and sums each over the two trailing axes at once. Entry by entry
the product of two readings is the reading of the conjunction and the clipped sum is `a + b - a b`; summed over a plane,
the three host sums are the plane's counts of the conjunction, of the union (by inclusion and exclusion) and of the target
mask, all real numbers. What follows them is, word for word, the score and the validity of the specification, and then the
shared tail.
-/

noncomputable section

open Idealize.ShloMosaic Idealize.ShloMosaic.ValueIdx Idealize.ShloMosaic.BitMasks Idealize.ShloMosaic.TwoAxisSum

namespace Cert.ReferenceIdeal.RefVal

open Cert.ReferenceIdeal Cert.ReferenceIdeal.Gen Cert.ReferenceIdeal.ReadP Cert.Spec

variable (X Y : S64x3x512x512.Idx → EReal)

/-- The input's mask, entry by entry. -/
theorem v2_apply (i : S64x3x512x512.Idx) : val_main_v2 (F := Ideal) X i = ((bit (gt (X i)) : ℝ) : EReal) := by
  rw [val_main_v2_apply, val_main_v1_apply, val_main_v0_apply, val_main_cst_apply]
  rfl

/-- The target's mask, entry by entry. -/
theorem v5_apply (i : S64x3x512x512.Idx) : val_main_v5 (F := Ideal) Y i = ((bit (gt (Y i)) : ℝ) : EReal) := by
  rw [val_main_v5_apply, val_main_v4_apply, val_main_v3_apply, val_main_cst_0_apply]
  rfl

/-- The product of the masks is the mask of the conjunction. -/
theorem v6_apply (i : S64x3x512x512.Idx) : val_main_v6 (F := Ideal) X Y i = ((bit (gt (X i) &&& gt (Y i)) : ℝ) : EReal) := by
  rw [val_main_v6_apply, v2_apply, v5_apply, bit_and, EReal.coe_mul]
  rfl

/-- The clipped sum of the masks is `a + b - a b`. -/
theorem v9_apply (i : S64x3x512x512.Idx) :
    val_main_v9 (F := Ideal) X Y i = ((bit (gt (X i)) + bit (gt (Y i)) - bit (gt (X i)) * bit (gt (Y i)) : ℝ) : EReal) := by
  rw [val_main_v9_apply, val_main_call0_v4_apply, val_main_call0_v3_apply, val_main_cst_3_apply, val_main_call0_v2_apply,
    val_main_call0_v1_apply, val_main_call0_v0_apply, val_main_cst_2_apply, val_main_v8_apply, v2_apply, v5_apply]
  exact clip_add _ _

/-- The intersection's host sum at `(b, q)` is the plane's count of the conjunction. -/
theorem v7_apply (b : Fin 64) (q : Fin 3) : val_main_v7 (F := Ideal) X Y (ix2 b q) = ((cnt gAnd X Y b q : ℝ) : EReal) := by
  unfold val_main_v7
  simp only [Host.reduceAdd, Ideal.hostReduceAdd_def]
  refine (hostReduceAdd_last2 _ _ _ b q).trans ?_
  rw [val_main_cst_1_apply, Ideal.ofBits_def, Ideal.ofBits_zero_f32, zero_add]
  unfold cnt gAnd
  rw [← coe_dsum]
  exact Finset.sum_congr rfl fun r _ => Finset.sum_congr rfl fun w _ => v6_apply X Y _

/-- The union's host sum at `(b, q)`: the two counts less the count of the conjunction. -/
theorem v10_apply (b : Fin 64) (q : Fin 3) :
    val_main_v10 (F := Ideal) X Y (ix2 b q) = ((cnt gIn X Y b q + cnt gTg X Y b q - cnt gAnd X Y b q : ℝ) : EReal) := by
  unfold val_main_v10
  simp only [Host.reduceAdd, Ideal.hostReduceAdd_def]
  refine (hostReduceAdd_last2 _ _ _ b q).trans ?_
  rw [val_main_cst_4_apply, Ideal.ofBits_def, Ideal.ofBits_zero_f32, zero_add, ← count_union, ← coe_dsum]
  exact Finset.sum_congr rfl fun r _ => Finset.sum_congr rfl fun w _ => v9_apply X Y _

/-- The target mask's host sum at `(b, q)`. -/
theorem v11_apply (b : Fin 64) (q : Fin 3) : val_main_v11 (F := Ideal) Y (ix2 b q) = ((cnt gTg X Y b q : ℝ) : EReal) := by
  unfold val_main_v11
  simp only [Host.reduceAdd, Ideal.hostReduceAdd_def]
  refine (hostReduceAdd_last2 _ _ _ b q).trans ?_
  rw [val_main_cst_5_apply, Ideal.ofBits_def, Ideal.ofBits_zero_f32, zero_add]
  unfold cnt gTg
  rw [← coe_dsum]
  exact Finset.sum_congr rfl fun r _ => Finset.sum_congr rfl fun w _ => v5_apply Y _

/-- The reference's per-plane scores are the specification's. -/
theorem v21_eq : val_main_v21 (F := Ideal) X Y = Giou X Y := by
  funext j
  obtain ⟨b, q, rfl⟩ : ∃ (b : Fin 64) (q : Fin 3), j = ix2 b q := ⟨j 0, j 1, eq_ix2 j⟩
  rw [val_main_v21_apply, val_main_v13_apply, val_main_v20_apply, val_main_v15_apply, val_main_v19_apply, val_main_v18_apply,
    val_main_v17_apply, v7_apply, v10_apply, v11_apply X, val_main_v12_apply, val_main_cst_6_apply, val_main_v14_apply,
    val_main_cst_7_apply, val_main_v16_apply, val_main_cst_8_apply, val_main_call1_v1_apply, val_main_call1_v0_apply,
    val_main_cst_9_apply, val_main_call2_v1_apply, val_main_call2_v0_apply, val_main_cst_10_apply,
    val_main_call3_v1_apply, val_main_call3_v0_apply, val_main_cst_11_apply]
  rfl

/-- The reference's per-plane validities are the specification's. -/
theorem v23_eq : val_main_v23 (F := Ideal) Y = Gvalid X Y := by
  funext j
  obtain ⟨b, q, rfl⟩ : ∃ (b : Fin 64) (q : Fin 3), j = ix2 b q := ⟨j 0, j 1, eq_ix2 j⟩
  rw [val_main_v23_apply, val_main_v13_apply, v11_apply X, val_main_v12_apply, val_main_cst_6_apply]
  rfl

/-- What follows is the shared tail of the two arrays. -/
theorem v31_eq : val_main_v31 (F := Ideal) X Y
    = tail (val_main_v21 (F := Ideal) X Y) (val_main_v23 (F := Ideal) Y) reducesTo_S64x3_S3_d0 h_S_ bcast_S_S3 := rfl

/-- The three results: the tail's three entries. -/
theorem v33_eq : val_main_v33 (F := Ideal) X Y
    = shapeCast S_ (extractStridedSlice S1 ![0] (tail (Giou X Y) (Gvalid X Y) reducesTo_S64x3_S3_d0 h_S_ bcast_S_S3) slices_S3_S1_0) shapeCasts_S1_S_ := by
  rw [← v21_eq, ← v23_eq X Y, ← v31_eq]
  rfl
theorem v35_eq : val_main_v35 (F := Ideal) X Y
    = shapeCast S_ (extractStridedSlice S1 ![1] (tail (Giou X Y) (Gvalid X Y) reducesTo_S64x3_S3_d0 h_S_ bcast_S_S3) slices_S3_S1_1) shapeCasts_S1_S_ := by
  rw [← v21_eq, ← v23_eq X Y, ← v31_eq]
  rfl
theorem v37_eq : val_main_v37 (F := Ideal) X Y
    = shapeCast S_ (extractStridedSlice S1 ![2] (tail (Giou X Y) (Gvalid X Y) reducesTo_S64x3_S3_d0 h_S_ bcast_S_S3) slices_S3_S1_2) shapeCasts_S1_S_ := by
  rw [← v21_eq, ← v23_eq X Y, ← v31_eq]
  rfl

end Cert.ReferenceIdeal.RefVal

end
-- ==== Proof.lean ====
/-
  The certificate: a mean intersection-over-union of two thresholded `[64, 3, 512, 512]` arrays, computed by a kernel that
  sweeps each plane in four bands of 128 rows with running counts in scratch, against the plain reference that sums each
  plane at once.

  Both programs threshold at one half and count, per plane, the entries set in the input's mask, in the target's mask and in
  both. The reference counts the union directly (the masks' sum clipped to one); the kernel recovers it from the three
  counts by inclusion and exclusion, `|X| + |Y| - |X ∧ Y|`. Every count is a finite sum of zeros and ones, a real number,
  so the identity holds on the extended reals with no condition on the inputs: the comparison with one half is defined for
  infinite entries too, and nothing else reads an entry. The per-plane score (the guarded quotient) and validity are then
  the same function of equal counts in both programs, and what follows them — per channel, the sum of the scores over the
  valid planes divided by their number — is one shared function of the two `[64, 3]` arrays, never opened.

  The three frames are the generated frame certificates (the reference's is its run with the results dropped); the
  idealization rewrote nothing.
-/
import proofs.«140002_j44796508897918_2_alg».proof.Defs
import proofs.«140002_j44796508897918_2_alg».proof.Proof.Gen.Kernel
import proofs.«140002_j44796508897918_2_alg».proof.Proof.Gen.Kernel.Skeleton
import proofs.«140002_j44796508897918_2_alg».proof.Proof.Gen.Kernel.Launch
import proofs.«140002_j44796508897918_2_alg».proof.Proof.Gen.Kernel.Points
import proofs.«140002_j44796508897918_2_alg».proof.Proof.Gen.Kernel.Frame
import proofs.«140002_j44796508897918_2_alg».proof.Proof.Gen.KernelIdeal
import proofs.«140002_j44796508897918_2_alg».proof.Proof.Gen.KernelIdeal.Skeleton
import proofs.«140002_j44796508897918_2_alg».proof.Proof.Gen.KernelIdeal.Launch
import proofs.«140002_j44796508897918_2_alg».proof.Proof.Gen.KernelIdeal.Points
import proofs.«140002_j44796508897918_2_alg».proof.Proof.Gen.KernelIdeal.Frame
import proofs.«140002_j44796508897918_2_alg».proof.Proof.Gen.ReferenceIdeal
import proofs.«140002_j44796508897918_2_alg».proof.Proof.Gen.Pre_finite_inputs
import proofs.«140002_j44796508897918_2_alg».proof.Proof.KRun
import proofs.«140002_j44796508897918_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => ⟨(h c).2.2.2.1, (h c).2.2.2.2⟩)
    (Cert.ReferenceIdeal.ValueP.run (F := Ideal) m ρ)

theorem preserves : Cert.preserves_Kernel_KernelIdeal := trivial

/-- Both programs end with each result at the same entry of the shared tail of the same two arrays of per-plane scores and
    validities: the kernel by its running counts, the reference stage by stage; the arguments agree. -/
theorem algebraic : Cert.algebraic_KernelIdeal_ReferenceIdeal := by
  intro m ρ m' ρ' _ hagree
  refine ⟨_, _, _, Cert.KernelIdeal.Val.run m ρ, ?_⟩
  refine (θ_run Cert.ReferenceIdeal.defs _ _).mono (fun _ h c => ?_) (Cert.ReferenceIdeal.ValueP.run (F := Ideal) m' ρ')
  obtain ⟨h0, h1, h2, ha0, ha1⟩ := h c
  refine ⟨h0.trans ?_, h1.trans ?_, h2.trans ?_, ha0, ha1⟩
  · rw [Cert.ReferenceIdeal.ReadP.val_main_v33_eq, Cert.ReferenceIdeal.RefVal.v33_eq, (hagree c).1, (hagree c).2]
  · rw [Cert.ReferenceIdeal.ReadP.val_main_v35_eq, Cert.ReferenceIdeal.RefVal.v35_eq, (hagree c).1, (hagree c).2]
  · rw [Cert.ReferenceIdeal.ReadP.val_main_v37_eq, Cert.ReferenceIdeal.RefVal.v37_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
